-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S1x262144x64 : Shape := ⟨3, ![1, 262144, 64]⟩
abbrev S64x64 : Shape := ⟨2, ![64, 64]⟩
abbrev S64 : Shape := ⟨1, ![64]⟩
abbrev S256x64 : Shape := ⟨2, ![256, 64]⟩
abbrev S256 : Shape := ⟨1, ![256]⟩
abbrev S16x64 : Shape := ⟨2, ![16, 64]⟩
abbrev S16 : Shape := ⟨1, ![16]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S1x262144x64 : S_.BroadcastsInDim S1x262144x64 (![] : Fin 0 → Fin S1x262144x64.rank)
  reducesTo_S1x262144x64_S_d0_1_2 : S1x262144x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S16x64 .f32) (main_arg10 : FVec F S16 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S16x64 .f32 := Host.absf main_arg9
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S64 .f32) (main_arg5 : FVec F S256x64 .f32) (main_arg6 : FVec F S256x64 .f32) (main_arg7 : FVec F S256 .f32) (main_arg8 : FVec F S256 .f32) (main_arg9 : FVec F S16x64 .f32) (main_arg10 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S262144x64 .f32) (main_arg1 : FVec F S1x262144x64 .f32) (main_arg2 : FVec F S1x262144x64 .f32) (main_arg3 : FVec F S64x64 .f32) (main_arg4 : FVec F S64 .f32) (main_arg5 : FVec F S256x64 .f32) (main_arg6 : FVec F S256x64 .f32) (main_arg7 : FVec F S256 .f32) (main_arg8 : FVec F S256 .f32) (main_arg9 : FVec F S16x64 .f32) (main_arg10 : FVec F S16 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S1x262144x64 .f32 := Host.absf main_arg1
  let main_cst_0 : FVec F S_ .f32 := constant S_ .f32 0x7F800000#32
  let main_v5 : FVec F S1x262144x64 .f32 := broadcastInDim S1x262144x64 ![] bcast_S_S1x262144x64 main_cst_0
  let main_v6 : IVec S1x262144x64 1 := cmpf .olt main_v4 main_v5
  let main_c_1 : IVec S_ 1 := constantI S_ 1 1#1
  let main_v7 : IVec S_ 1 := (fun x v => Host.reduce IntOp.andi x v reducesTo_S1x262144x64_S_d0_1_2 h_S_) main_v6 main_c_1
  let main_v8 : IVec S_ 1 := andi main_v3 main_v7
  let main_v9 : FVec F S1x262144x64 .f32 := Host.absf main_arg2
  let main_cst_2 : FVec F S_ .f32 := constant S_ .f32 0x7F800000#32
  let main_v10 : FVec F S1x262144x64 .f32 := broadcastInDim S1x262144x64 ![] bcast_S_S1x262144x64 main_cst_2
  let main_v11 : IVec S1x262144x64 1 := cmpf .olt main_v9 main_v10
  let main_c_3 : IVec S_ 1 := constantI S_ 1 1#1
  let main_v12 : IVec S_ 1 := (fun x v => Host.reduce IntOp.andi x v reducesTo_S1x262144x64_S_d0_1_2 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S262144x64 : Shape := ⟨2, ![262144, 64]⟩
abbrev S1x262144x64 : Shape := ⟨3, ![1, 262144, 64]⟩
abbrev S64x64 : Shape := ⟨2, ![64, 64]⟩
abbrev S64 : Shape := ⟨1, ![64]⟩
abbrev S256x64 : Shape := ⟨2, ![256, 64]⟩
abbrev S256 : Shape := ⟨1, ![256]⟩
abbrev S16x64 : Shape := ⟨2, ![16, 64]⟩
abbrev S16 : Shape := ⟨1, ![16]⟩
abbrev S1x64 : Shape := ⟨2, ![1, 64]⟩
abbrev S1x16 : Shape := ⟨2, ![1, 16]⟩
abbrev S262144x16 : Shape := ⟨2, ![262144, 16]⟩
abbrev S2048x64 : Shape := ⟨2, ![2048, 64]⟩
abbrev S1x2048x64 : Shape := ⟨3, ![1, 2048, 64]⟩
abbrev S2048x16 : Shape := ⟨2, ![2048, 16]⟩
abbrev S64x16 : Shape := ⟨2, ![64, 16]⟩

abbrev nBuf : Space → Nat
  | .hbm => 40
  | .vmem => 28
  | .smem => 0
  | _ => 0

abbrev bufTy : (tb : Table) → Fin (tcTables nBuf tb) → BufTy
  | .hbm, ⟨0, _⟩ => ⟨S262144x64, .f32⟩
  | .hbm, ⟨1, _⟩ => ⟨S1x262144x64, .f32⟩
  | .hbm, ⟨2, _⟩ => ⟨S1x262144x64, .f32⟩
  | .hbm, ⟨3, _⟩ => ⟨S64x64, .f32⟩
  | .hbm, ⟨4, _⟩ => ⟨S64, .f32⟩
  | .hbm, ⟨5, _⟩ => ⟨S256x64, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S16x64, .f32⟩
  | .hbm, ⟨10, _⟩ => ⟨S16, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S1x64, .f32⟩
  | .hbm, ⟨36, _⟩ => ⟨S1x16, .f32⟩
  | .hbm, ⟨37, _⟩ => ⟨S262144x16, .f32⟩
  | .hbm, ⟨38, _⟩ => ⟨S1x262144x64, .f32⟩
  | .hbm, ⟨39, _⟩ => ⟨S1x262144x64, .f32⟩
  | .local _ .vmem, ⟨0, _⟩ => ⟨S2048x64, .f32⟩
  | .local _ .vmem, ⟨1, _⟩ => ⟨S2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S16x64, .f32⟩
  | .local _ .vmem, ⟨21, _⟩ => ⟨S1x16, .f32⟩
  | .local _ .vmem, ⟨22, _⟩ => ⟨S2048x16, .f32⟩
  | .local _ .vmem, ⟨23, _⟩ => ⟨S2048x16, .f32⟩
  | .local _ .vmem, ⟨24, _⟩ => ⟨S1x2048x64, .f32⟩
  | .local _ .vmem, ⟨25, _⟩ => ⟨S1x2048x64, .f32⟩
  | .local _ .vmem, ⟨26, _⟩ => ⟨S1x2048x64, .f32⟩
  | .local _ .vmem, ⟨27, _⟩ => ⟨S1x2048x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S2048x16 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2048x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x2048x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  slices_S256_S64_0 : S256.Slices ![0] S64
  slices_S256_S64_64 : S256.Slices ![64] S64
  slices_S256_S64_128 : S256.Slices ![128] S64
  slices_S256_S64_192 : S256.Slices ![192] S64
  shapeCasts_S64_S1x64 : S64.ShapeCasts S1x64
  shapeCasts_S16_S1x16 : S16.ShapeCasts S1x16
  inb_S2048x64_S2048x64_0_0 : ∀ a, (![0, 0] : Fin 2 → Nat) a + S2048x64.size a ≤ S2048x64.size a
  h_S2048x64 : 0 < S2048x64.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S64x64_S64x64 : S64x64.ShapeCasts S64x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  shapeCasts_S2048x64_S1x2048x64 : S2048x64.ShapeCasts S1x2048x64
  dot_S2048x64_S64x64_S2048x64_1_0_0_1_n_n_wf : DotDims.WF S2048x64 S64x64 S2048x64 [1] [0] [0] [1] [] []
  dot_S2048x64_S64x16_S2048x16_1_0_0_1_n_n_wf : DotDims.WF S2048x64 S64x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S1x262144x64.size a
  hwx0_1 : ∀ i : grid0.Coords, EltTy.bits .f32 = 32 ∨ (Rect.block (s := S1x262144x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S1x262144x64.size a
  hwx0_2 : ∀ i : grid0.Coords, EltTy.bits .f32 = 32 ∨ (Rect.block (s := S1x262144x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x64.size a ≤ S16x64.size a
  hwx0_17 : ∀ i : grid0.Coords, EltTy.bits .f32 = 32 ∨ (Rect.block (s := S16x64) S16x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x16.size a ≤ S1x16.size a
  hwx0_18 : ∀ i : grid0.Coords, EltTy.bits .f32 = 32 ∨ (Rect.block (s := S1x16) S1x16.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x16.size a ≤ S262144x16.size a
  hwx0_19 : ∀ i : grid0.Coords, EltTy.bits .f32 = 32 ∨ (Rect.block (s := S262144x16) S2048x16.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x2048x64.size a ≤ S1x262144x64.size a
  hwx0_20 : ∀ i : grid0.Coords, EltTy.bits .f32 = 32 ∨ (Rect.block (s := S1x262144x64) S1x2048x64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x2048x64.size a ≤ S1x262144x64.size a
  hwx0_21 : ∀ i : grid0.Coords, EltTy.bits .f32 = 32 ∨ (Rect.block (s := S1x262144x64) S1x2048x64.size (cc0_transform_21 i) (hinb0_21 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg9) S16x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v25) S1x16.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v26_0) S2048x16.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v26_1) S1x2048x64.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v26_2) S1x2048x64.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S262144x64 : Shape := ⟨2, ![262144, 64]⟩
abbrev S1x262144x64 : Shape := ⟨3, ![1, 262144, 64]⟩
abbrev S64x64 : Shape := ⟨2, ![64, 64]⟩
abbrev S64 : Shape := ⟨1, ![64]⟩
abbrev S256x64 : Shape := ⟨2, ![256, 64]⟩
abbrev S256 : Shape := ⟨1, ![256]⟩
abbrev S16x64 : Shape := ⟨2, ![16, 64]⟩
abbrev S16 : Shape := ⟨1, ![16]⟩
abbrev S1x64 : Shape := ⟨2, ![1, 64]⟩
abbrev S64x256 : Shape := ⟨2, ![64, 256]⟩
abbrev S262144x256 : Shape := ⟨2, ![262144, 256]⟩
abbrev S1x256 : Shape := ⟨2, ![1, 256]⟩
abbrev S_ : Shape := ⟨0, ![]⟩
abbrev S64x16 : Shape := ⟨2, ![64, 16]⟩
abbrev S262144x16 : Shape := ⟨2, ![262144, 16]⟩
abbrev S1x16 : Shape := ⟨2, ![1, 16]⟩

abbrev nBuf : Space → Nat
  | .hbm => 83
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S1x262144x64, .f32⟩
  | .hbm, ⟨2, _⟩ => ⟨S1x262144x64, .f32⟩
  | .hbm, ⟨3, _⟩ => ⟨S64x64, .f32⟩
  | .hbm, ⟨4, _⟩ => ⟨S64, .f32⟩
  | .hbm, ⟨5, _⟩ => ⟨S256x64, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S16x64, .f32⟩
  | .hbm, ⟨10, _⟩ => ⟨S16, .f32⟩
  | .hbm, ⟨11, _⟩ => ⟨S64x64, .f32⟩
  | .hbm, ⟨12, _⟩ => ⟨S262144x64, .f32⟩
  | .hbm, ⟨13, _⟩ => ⟨S1x64, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S262144x64, .f32⟩
  | .hbm, ⟨18, _⟩ => ⟨S64x256, .f32⟩
  | .hbm, ⟨19, _⟩ => ⟨S262144x256, .f32⟩
  | .hbm, ⟨20, _⟩ => ⟨S1x256, .f32⟩
  | .hbm, ⟨21, _⟩ => ⟨S262144x256, .f32⟩
  | .hbm, ⟨22, _⟩ => ⟨S262144x256, .f32⟩
  | .hbm, ⟨23, _⟩ => ⟨S64x256, .f32⟩
  | .hbm, ⟨24, _⟩ => ⟨S262144x256, .f32⟩
  | .hbm, ⟨25, _⟩ => ⟨S262144x256, .f32⟩
  | .hbm, ⟨26, _⟩ => ⟨S1x256, .f32⟩
  | .hbm, ⟨27, _⟩ => ⟨S262144x256, .f32⟩
  | .hbm, ⟨28, _⟩ => ⟨S262144x256, .f32⟩
  | .hbm, ⟨29, _⟩ => ⟨S262144x64, .f32⟩
  | .hbm, ⟨30, _⟩ => ⟨S262144x64, .f32⟩
  | .hbm, ⟨31, _⟩ => ⟨S262144x64, .f32⟩
  | .hbm, ⟨32, _⟩ => ⟨S262144x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S262144x64, .f32⟩
  | .hbm, ⟨40, _⟩ => ⟨S262144x64, .f32⟩
  | .hbm, ⟨41, _⟩ => ⟨S262144x64, .f32⟩
  | .hbm, ⟨42, _⟩ => ⟨S262144x64, .f32⟩
  | .hbm, ⟨43, _⟩ => ⟨S_, .f32⟩
  | .hbm, ⟨44, _⟩ => ⟨S262144x64, .f32⟩
  | .hbm, ⟨45, _⟩ => ⟨S262144x64, .f32⟩
  | .hbm, ⟨46, _⟩ => ⟨S_, .f32⟩
  | .hbm, ⟨47, _⟩ => ⟨S262144x64, .f32⟩
  | .hbm, ⟨48, _⟩ => ⟨S262144x64, .f32⟩
  | .hbm, ⟨49, _⟩ => ⟨S262144x64, .f32⟩
  | .hbm, ⟨50, _⟩ => ⟨S262144x64, .f32⟩
  | .hbm, ⟨51, _⟩ => ⟨S262144x64, .f32⟩
  | .hbm, ⟨52, _⟩ => ⟨S_, .f32⟩
  | .hbm, ⟨53, _⟩ => ⟨S262144x64, .f32⟩
  | .hbm, ⟨54, _⟩ => ⟨S262144x64, .f32⟩
  | .hbm, ⟨55, _⟩ => ⟨S_, .f32⟩
  | .hbm, ⟨56, _⟩ => ⟨S262144x64, .f32⟩
  | .hbm, ⟨57, _⟩ => ⟨S262144x64, .f32⟩
  | .hbm, ⟨58, _⟩ => ⟨S262144x64, .f32⟩
  | .hbm, ⟨59, _⟩ => ⟨S262144x64, .f32⟩
  | .hbm, ⟨60, _⟩ => ⟨S262144x64, .f32⟩
  | .hbm, ⟨61, _⟩ => ⟨S262144x64, .f32⟩
  | .hbm, ⟨62, _⟩ => ⟨S262144x64, .f32⟩
  | .hbm, ⟨63, _⟩ => ⟨S64x16, .f32⟩
  | .hbm, ⟨64, _⟩ => ⟨S262144x16, .f32⟩
  | .hbm, ⟨65, _⟩ => ⟨S1x16, .f32⟩
  | .hbm, ⟨66, _⟩ => ⟨S262144x16, .f32⟩
  | .hbm, ⟨67, _⟩ => ⟨S262144x16, .f32⟩
  | .hbm, ⟨68, _⟩ => ⟨S262144x16, .f32⟩
  | .hbm, ⟨69, _⟩ => ⟨S_, .f32⟩
  | .hbm, ⟨70, _⟩ => ⟨S262144x16, .f32⟩
  | .hbm, ⟨71, _⟩ => ⟨S262144x16, .f32⟩
  | .hbm, ⟨72, _⟩ => ⟨S_, .f32⟩
  | .hbm, ⟨73, _⟩ => ⟨S262144x16, .f32⟩
  | .hbm, ⟨74, _⟩ => ⟨S262144x16, .f32⟩
  | .hbm, ⟨75, _⟩ => ⟨S_, .f32⟩
  | .hbm, ⟨76, _⟩ => ⟨S262144x16, .f32⟩
  | .hbm, ⟨77, _⟩ => ⟨S262144x16, .f32⟩
  | .hbm, ⟨78, _⟩ => ⟨S_, .f32⟩
  | .hbm, ⟨79, _⟩ => ⟨S262144x16, .f32⟩
  | .hbm, ⟨80, _⟩ => ⟨S262144x16, .f32⟩
  | .hbm, ⟨81, _⟩ => ⟨S1x262144x64, .f32⟩
  | .hbm, ⟨82, _⟩ => ⟨S1x262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  shapeCasts_S1x262144x64_S262144x64 : S1x262144x64.ShapeCasts S262144x64
  transposes_S256x64_S64x256_1_0 : S256x64.Transposes [1, 0] S64x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S262144x256_S262144x64_0_0 : S262144x256.Slices ![0, 0] S262144x64
  slices_S262144x256_S262144x64_0_64 : S262144x256.Slices ![0, 64] S262144x64
  slices_S262144x256_S262144x64_0_128 : S262144x256.Slices ![0, 128] S262144x64
  slices_S262144x256_S262144x64_0_192 : S262144x256.Slices ![0, 192] S262144x64
  bcast_S_S262144x64 : S_.BroadcastsInDim S262144x64 (![] : Fin 0 → Fin S262144x64.rank)
  transposes_S16x64_S64x16_1_0 : S16x64.Transposes [1, 0] S64x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  bcast_S262144x64_S1x262144x64_1_2 : S262144x64.BroadcastsInDim S1x262144x64 (![1, 2] : Fin 2 → Fin S1x262144x64.rank)
  dot_S262144x64_S64x64_S262144x64_1_0_0_1_n_n_wf : DotDims.WF S262144x64 S64x64 S262144x64 [1] [0] [0] [1] [] []
  dot_S262144x64_S64x256_S262144x256_1_0_0_1_n_n_wf : DotDims.WF S262144x64 S64x256 S262144x256 [1] [0] [0] [1] [] []
  dot_S262144x64_S64x16_S262144x16_1_0_0_1_n_n_wf : DotDims.WF S262144x64 S64x16 S262144x16 [1] [0] [0] [1] [] []

variable [Facts₀]

def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf

class Facts : Prop extends Facts₀ where

variable [Facts]
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibDense.lean ====
/-
  One dense layer read at an entry.

  A dense layer sends a table x of m rows and n columns to  relu (x · w + b):  entry (a, j) of the result is
  max (Σ_k x(a, k) · w(k, j) + b(j)) 0,  the sum over the n columns of x (rows of w). Here the layer is spelt the way
  a vector unit computes one block of rows: both operands pass through a change of float format (the identity on
  the extended reals) and an identity re-shaping, the product accumulates into a zero table, the bias is a one-row
  table repeated down the rows, and the rectifier is the maximum with a table of zeros. The same value holds with
  no rectifier (lin_apply). No finiteness is assumed: only that zero is neutral for + and that the dimension
  record's contraction runs over the n positions of the shared axis.
-/
import Idealize.ShloMosaic.Lib.ValueIdx
import Idealize.ShloMosaic.Lib.ValueLayout
import Idealize.ShloMosaic.Lib.Pipeline.Value
import Idealize.ShloMosaic.PureOps.Ideal.Laws
import proofs.«103413_j58136677318825_1_alg».proof.Proof.LibDot

noncomputable section

open scoped BigOperators

namespace Cert.LibDense

open Idealize.ShloMosaic Idealize.ShloMosaic.ValueIdx

/-- A one-row table repeated down m rows: entry (a, j) is the row's entry j. -/
theorem row_apply {α : Type} {m p : Nat} (b : (⟨2, ![1, p]⟩ : Shape).Idx → α)
    (hb : (⟨2, ![1, p]⟩ : Shape).Broadcasts ⟨2, ![m, p]⟩) (a : Fin m) (j : Fin p) :
    broadcastTo ⟨2, ![m, p]⟩ b hb (ix2 a j) = b (ix2 (0 : Fin 1) j) := by
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- A one-row table repeated down m rows (after an identity re-shaping): entry (a, j) is the row's entry j. -/
theorem bias_apply {m p : Nat} (b : (⟨2, ![1, p]⟩ : Shape).Idx → EReal)
    (hc : (⟨2, ![1, p]⟩ : Shape).ShapeCasts ⟨2, ![1, p]⟩) (hb : (⟨2, ![1, p]⟩ : Shape).Broadcasts ⟨2, ![m, p]⟩)
    (a : Fin m) (j : Fin p) :
    broadcastTo ⟨2, ![m, p]⟩ (shapeCast ⟨2, ![1, p]⟩ b hc) hb (ix2 a j) = b (ix2 (0 : Fin 1) j) := by
  rw [shapeCast_self]
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- The linear part  x · w + b  of the layer at entry (a, j), the operands as they are. -/
theorem lin_core {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [addf_apply, bias_apply b hc hb a j]
  congr 1
  refine (Ideal.matmul_constant_zero_apply d none _ _ (ix2 a j)).trans ?_
  exact Cert.Sage.LibDot.sum_plain d hr hs hl0 hl1 hr0 hr1 (fun i => x i) (fun i => w i) a j

/-- The same with both operands passed through an identity re-shaping first. -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 (shapeCast ⟨2, ![n, p]⟩ w hw) hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self, shapeCast_self]
  exact lin_core d hr hs hl0 hl1 hr0 hr1 x w b hc hb hbits a j

/-- The same with only the left operand passed through an identity re-shaping. -/
theorem lin_apply_x {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 w hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self]
  exact lin_core d hr hs hl0 hl1 hr0 hr1 x w b hc hb hbits a j

end Cert.LibDense

end
-- ==== Proof.Spec.lean ====
/-
  One step of a recurrent cell between two dense layers, one row at a time.

  A row o of 64 observations is first projected,  x_j = Σ_k o_k · Win(j,k) + bin(j).  From x and the row h of the
  previous hidden state each of the four gates forms its pre-activation
      z_j = (Σ_k x_k · Wx(j,k) + Σ_k h_k · Wh(j,k)) + b_j ,
  and with σ(z) = 1 / (1 + e^(-z)) the new cell and hidden rows are
      c'_j = σ(z^f_j) · c_j + σ(z^i_j) · tanh(z^g_j) ,      h'_j = σ(z^o_j) · tanh(c'_j) .
  The action row is  -1 + ((tanh(Σ_k h'_k · Wout(a,k) + bout(a)) + 1) · 1/2) · 2 ,  its four constants kept as
  the binary words both programs print.

  Every output row depends on the same row of the three batched inputs and on the weights only, so the three
  results are stated for a batch of ANY number n of rows: a block of rows of the batch and the whole batch are two
  instances of one definition. All values are extended reals; nothing here needs an entry to be finite.
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- A row of 64 entries. -/
abbrev Row := Fin 64 → EReal
/-- A 64 × 64 weight table, `W j k` the weight from input k to output j. -/
abbrev Mat := Fin 64 → Fin 64 → EReal

/-- The input projection of one row. -/
def proj (W : Mat) (b : Row) (o : Row) : Row := fun j => (∑ k : Fin 64, o k * W j k) + b j

/-- A gate's pre-activation of one row, the two products added first and the bias last. -/
def pre (Wx Wh : Mat) (b : Row) (x h : Row) : Row :=
  fun j => ((∑ k : Fin 64, x k * Wx j k) + (∑ k : Fin 64, h k * Wh j k)) + b j

/-- The same pre-activation with its bias in two parts, each added right after one of the products. -/
def pre2 (Wx Wh : Mat) (bx bh : Row) (x h : Row) : Row :=
  fun j => (((∑ k : Fin 64, x k * Wx j k) + bx j) + (∑ k : Fin 64, h k * Wh j k)) + bh j

/-- Adding the two bias parts first and last is the same sum: + on the extended reals is commutative and
    associative (no finiteness needed). -/
theorem pre2_eq (Wx Wh : Mat) (bx bh : Row) (x h : Row) :
    pre2 Wx Wh bx bh x h = pre Wx Wh (fun j => bx j + bh j) x h := by
  funext j
  unfold pre2 pre
  rw [add_assoc, add_assoc, add_assoc, add_left_comm (bx j)]

/-- The weights of the cell: projection, the four gates' two tables and bias, output layer. -/
structure Params where
  Win : Mat
  bin : Row
  Wxi : Mat
  Wxf : Mat
  Wxg : Mat
  Wxo : Mat
  Whi : Mat
  Whf : Mat
  Whg : Mat
  Who : Mat
  bi : Row
  bf : Row
  bg : Row
  bo : Row
  Wout : Fin 16 → Fin 64 → EReal
  bout : Fin 16 → EReal

/-- The new cell row. -/
def cellC (P : Params) (o h c : Row) : Row := fun j =>
  Ideal.logistic (pre P.Wxf P.Whf P.bf (proj P.Win P.bin o) h j) * c j
    + Ideal.logistic (pre P.Wxi P.Whi P.bi (proj P.Win P.bin o) h j)
      * Ideal.tanh (pre P.Wxg P.Whg P.bg (proj P.Win P.bin o) h j)

/-- The new hidden row. -/
def cellH (P : Params) (o h c : Row) : Row := fun j =>
  Ideal.logistic (pre P.Wxo P.Who P.bo (proj P.Win P.bin o) h j) * Ideal.tanh (cellC P o h c j)

/-- The action row: the output layer of the new hidden row, squashed and rescaled. -/
def cellA (P : Params) (o h c : Row) : Fin 16 → EReal := fun a =>
  Ideal.ofBits .f32 0xBF800000#32
    + ((Ideal.tanh ((∑ k : Fin 64, cellH P o h c k * P.Wout a k) + P.bout a) + Ideal.ofBits .f32 0x3F800000#32)
        * Ideal.ofBits .f32 0x3F000000#32) * Ideal.ofBits .f32 0x40000000#32

/-- Row r of a table of n rows. -/
def row2 {n : Nat} (a : (⟨2, ![n, 64]⟩ : Shape).Idx → EReal) (r : Fin n) : Row := fun k => a (ix2 r k)
/-- Row r of a table of n rows under a leading axis of extent one. -/
def row3 {n : Nat} (a : (⟨3, ![1, n, 64]⟩ : Shape).Idx → EReal) (r : Fin n) : Row := fun k => a (ix3 (0 : Fin 1) r k)

/-- The new cell state of a batch of n rows. -/
def outC {n : Nat} (P : Params) (obs : (⟨2, ![n, 64]⟩ : Shape).Idx → EReal)
    (h0 c0 : (⟨3, ![1, n, 64]⟩ : Shape).Idx → EReal) : (⟨3, ![1, n, 64]⟩ : Shape).Idx → EReal :=
  fun i => cellC P (row2 obs ⟨(i 1).val, (i 1).isLt⟩) (row3 h0 ⟨(i 1).val, (i 1).isLt⟩)
    (row3 c0 ⟨(i 1).val, (i 1).isLt⟩) ⟨(i 2).val, (i 2).isLt⟩

/-- The new hidden state of a batch of n rows. -/
def outH {n : Nat} (P : Params) (obs : (⟨2, ![n, 64]⟩ : Shape).Idx → EReal)
    (h0 c0 : (⟨3, ![1, n, 64]⟩ : Shape).Idx → EReal) : (⟨3, ![1, n, 64]⟩ : Shape).Idx → EReal :=
  fun i => cellH P (row2 obs ⟨(i 1).val, (i 1).isLt⟩) (row3 h0 ⟨(i 1).val, (i 1).isLt⟩)
    (row3 c0 ⟨(i 1).val, (i 1).isLt⟩) ⟨(i 2).val, (i 2).isLt⟩

/-- The actions of a batch of n rows. -/
def outA {n : Nat} (P : Params) (obs : (⟨2, ![n, 64]⟩ : Shape).Idx → EReal)
    (h0 c0 : (⟨3, ![1, n, 64]⟩ : Shape).Idx → EReal) : (⟨2, ![n, 16]⟩ : Shape).Idx → EReal :=
  fun i => cellA P (row2 obs ⟨(i 0).val, (i 0).isLt⟩) (row3 h0 ⟨(i 0).val, (i 0).isLt⟩)
    (row3 c0 ⟨(i 0).val, (i 0).isLt⟩) ⟨(i 1).val, (i 1).isLt⟩

theorem outC_ix {n : Nat} (P : Params) (obs : (⟨2, ![n, 64]⟩ : Shape).Idx → EReal)
    (h0 c0 : (⟨3, ![1, n, 64]⟩ : Shape).Idx → EReal) (u : Fin 1) (r : Fin n) (j : Fin 64) :
    outC P obs h0 c0 (ix3 u r j) = cellC P (row2 obs r) (row3 h0 r) (row3 c0 r) j := rfl

theorem outH_ix {n : Nat} (P : Params) (obs : (⟨2, ![n, 64]⟩ : Shape).Idx → EReal)
    (h0 c0 : (⟨3, ![1, n, 64]⟩ : Shape).Idx → EReal) (u : Fin 1) (r : Fin n) (j : Fin 64) :
    outH P obs h0 c0 (ix3 u r j) = cellH P (row2 obs r) (row3 h0 r) (row3 c0 r) j := rfl

theorem outA_ix {n : Nat} (P : Params) (obs : (⟨2, ![n, 64]⟩ : Shape).Idx → EReal)
    (h0 c0 : (⟨3, ![1, n, 64]⟩ : Shape).Idx → EReal) (r : Fin n) (a : Fin 16) :
    outA P obs h0 c0 (ix2 r a) = cellA P (row2 obs r) (row3 h0 r) (row3 c0 r) a := rfl

/-- Row 64·g + j of a table of 256 rows: row j of the g-th of its four stacked 64-row parts. -/
def gateRow (g : Fin 4) (j : Fin 64) : Fin 256 := ⟨64 * g.val + j.val, by have := g.isLt; have := j.isLt; omega⟩

/-- The cell's weights read off the argument tables: the gates' tables are the four stacked parts of the two
    256-row tables, a gate's bias the sum of the matching entries of the two 256-entry bias vectors. -/
def paramsOf (Win : (⟨2, ![64, 64]⟩ : Shape).Idx → EReal) (bin : (⟨1, ![64]⟩ : Shape).Idx → EReal)
    (Wih Whh : (⟨2, ![256, 64]⟩ : Shape).Idx → EReal) (bih bhh : (⟨1, ![256]⟩ : Shape).Idx → EReal)
    (Wout : (⟨2, ![16, 64]⟩ : Shape).Idx → EReal) (bout : (⟨1, ![16]⟩ : Shape).Idx → EReal) : Params where
  Win := fun j k => Win (ix2 j k)
  bin := fun j => bin (ix1 j)
  Wxi := fun j k => Wih (ix2 (gateRow 0 j) k)
  Wxf := fun j k => Wih (ix2 (gateRow 1 j) k)
  Wxg := fun j k => Wih (ix2 (gateRow 2 j) k)
  Wxo := fun j k => Wih (ix2 (gateRow 3 j) k)
  Whi := fun j k => Whh (ix2 (gateRow 0 j) k)
  Whf := fun j k => Whh (ix2 (gateRow 1 j) k)
  Whg := fun j k => Whh (ix2 (gateRow 2 j) k)
  Who := fun j k => Whh (ix2 (gateRow 3 j) k)
  bi := fun j => bih (ix1 (gateRow 0 j)) + bhh (ix1 (gateRow 0 j))
  bf := fun j => bih (ix1 (gateRow 1 j)) + bhh (ix1 (gateRow 1 j))
  bg := fun j => bih (ix1 (gateRow 2 j)) + bhh (ix1 (gateRow 2 j))
  bo := fun j => bih (ix1 (gateRow 3 j)) + bhh (ix1 (gateRow 3 j))
  Wout := fun a k => Wout (ix2 a k)
  bout := fun a => bout (ix1 a)

/-- The word 0x3F800000 is the number one. -/
theorem ofBits_one_f32 : Ideal.ofBits .f32 0x3F800000#32 = 1 := by
  simp [Ideal.ofBits, Ideal.ieee, -EReal.coe_mul]; norm_num

/-- The logistic function spelt out with the word for one: 1 / (1 + e^(-z)). -/
theorem logistic_spelt (z : EReal) :
    Ideal.div (Ideal.ofBits .f32 0x3F800000#32) (Ideal.ofBits .f32 0x3F800000#32 + Ideal.exp (-z)) = Ideal.logistic z := by
  rw [ofBits_one_f32]; rfl

end Cert.Lstm

end
-- ==== Proof.KMat.lean ====
/-
  The vector unit's products of one block of rows, read at an entry.

  Every product in the body multiplies a block of 2048 rows by the TRANSPOSE of a weight table held row by row
  (output unit j in row j): entry (p, j) of  X · Wᵀ  is  Σ_k X(p, k) · W(j, k),  k over the 64 shared positions. The
  accumulator starts at zero, which is neutral for + on the extended reals, and the change of float format in front
  of each operand is the identity there. A bias is a one-row table repeated down the block's rows.
-/
import proofs.«103413_j58136677318825_1_alg».proof.Proof.Gen.KernelIdeal
import proofs.«103413_j58136677318825_1_alg».proof.Proof.LibDot
import proofs.«103413_j58136677318825_1_alg».proof.Proof.LibDense
import proofs.«103413_j58136677318825_1_alg».proof.Proof.Spec

noncomputable section

open scoped BigOperators

namespace Cert.Lstm.Kern

open Idealize.ShloMosaic Idealize.ShloMosaic.ValueIdx Cert.KernelIdeal Cert.KernelIdeal.Facts₀ Cert.KernelIdeal.Facts Cert.Lstm

/-- The record of a 2048 × 64 by 64 × 64 product. -/
abbrev d64 : DotDims S2048x64 S64x64 S2048x64 := dot_S2048x64_S64x64_S2048x64_1_0_0_1_n_n
/-- The record of a 2048 × 64 by 64 × 16 product. -/
abbrev d16 : DotDims S2048x64 S64x16 S2048x16 := dot_S2048x64_S64x16_S2048x16_1_0_0_1_n_n

theorem d64_l0 (i : S2048x64.Idx) (q : d64.contr.Idx) : (d64.lhsIdx i q 0).val = (i 0).val := by
  unfold DotDims.lhsIdx
  rw [dif_neg (show ¬(0 : Fin S2048x64.rank) ∈ d64.lhsBatch by decide),
    dif_pos (show (0 : Fin S2048x64.rank) ∈ d64.lhsNonContracting by decide)]
  rfl
theorem d64_l1 (i : S2048x64.Idx) (q : d64.contr.Idx) : (d64.lhsIdx i q 1).val = (q ⟨0, by decide⟩).val :=
  d64.lhsIdx_val_of_single rfl i q
theorem d64_r0 (i : S2048x64.Idx) (q : d64.contr.Idx) : (d64.rhsIdx i q 0).val = (q ⟨0, by decide⟩).val :=
  d64.rhsIdx_val_of_single rfl i q
theorem d64_r1 (i : S2048x64.Idx) (q : d64.contr.Idx) : (d64.rhsIdx i q 1).val = (i 1).val := by
  unfold DotDims.rhsIdx
  rw [dif_neg (show ¬(1 : Fin S64x64.rank) ∈ d64.rhsBatch by decide),
    dif_pos (show (1 : Fin S64x64.rank) ∈ d64.rhsNonContracting by decide)]
  rfl

theorem d16_l0 (i : S2048x16.Idx) (q : d16.contr.Idx) : (d16.lhsIdx i q 0).val = (i 0).val := by
  unfold DotDims.lhsIdx
  rw [dif_neg (show ¬(0 : Fin S2048x64.rank) ∈ d16.lhsBatch by decide),
    dif_pos (show (0 : Fin S2048x64.rank) ∈ d16.lhsNonContracting by decide)]
  rfl
theorem d16_l1 (i : S2048x16.Idx) (q : d16.contr.Idx) : (d16.lhsIdx i q 1).val = (q ⟨0, by decide⟩).val :=
  d16.lhsIdx_val_of_single rfl i q
theorem d16_r0 (i : S2048x16.Idx) (q : d16.contr.Idx) : (d16.rhsIdx i q 0).val = (q ⟨0, by decide⟩).val :=
  d16.rhsIdx_val_of_single rfl i q
theorem d16_r1 (i : S2048x16.Idx) (q : d16.contr.Idx) : (d16.rhsIdx i q 1).val = (i 1).val := by
  unfold DotDims.rhsIdx
  rw [dif_neg (show ¬(1 : Fin S64x16.rank) ∈ d16.rhsBatch by decide),
    dif_pos (show (1 : Fin S64x16.rank) ∈ d16.rhsNonContracting by decide)]
  rfl

/-- Entry (k, j) of the transpose of a 64 × 64 table is its entry (j, k). -/
theorem tr64 (W : S64x64.Idx → EReal) (k j : Fin 64) :
    transpose S64x64 [1, 0] W transposes_S64x64_p1_0_S64x64 (ix2 k j) = W (ix2 j k) :=
  transpose_apply [1, 0] W transposes_S64x64_p1_0_S64x64 (ix2 k j) (ix2 j k) (fun b => match b with
    | ⟨0, _⟩ => rfl
    | ⟨1, _⟩ => rfl)

/-- Entry (k, a) of the transpose of a 16 × 64 table is its entry (a, k). -/
theorem tr16 (W : S16x64.Idx → EReal) (k : Fin 64) (a : Fin 16) :
    transpose S64x16 [1, 0] W transposes_S16x64_p1_0_S64x16 (ix2 k a) = W (ix2 a k) :=
  transpose_apply [1, 0] W transposes_S16x64_p1_0_S64x16 (ix2 k a) (ix2 a k) (fun b => match b with
    | ⟨0, _⟩ => rfl
    | ⟨1, _⟩ => rfl)

/-- Entry (p, j) of a block times a transposed 64 × 64 table, accumulated from zero. -/
theorem mm64 (X : S2048x64.Idx → EReal) (W : S64x64.Idx → EReal) (p : Fin 2048) (j : Fin 64) :
    FloatOps.matmul (F := Ideal) (φ₁ := .bf16) (φ₂ := .bf16) d64 none X
        (transpose S64x64 [1, 0] W transposes_S64x64_p1_0_S64x64) (constant (F := Ideal) S2048x64 .f32 0x00000000#32) (ix2 p j)
      = ∑ k : Fin 64, X (ix2 p k) * W (ix2 j k) := by
  refine (Ideal.matmul_constant_zero_apply (φ₁ := .bf16) (φ₂ := .bf16) d64 none X _ (ix2 p j)).trans ?_
  refine (Cert.Sage.LibDot.sum_plain d64 rfl rfl d64_l0 d64_l1 d64_r0 d64_r1 X
    (transpose S64x64 [1, 0] W transposes_S64x64_p1_0_S64x64) p j).trans ?_
  exact Finset.sum_congr rfl fun k _ => congrArg (X (ix2 p k) * ·) (tr64 W k j)

/-- Entry (p, a) of a block times a transposed 16 × 64 table, accumulated from zero. -/
theorem mm16 (X : S2048x64.Idx → EReal) (W : S16x64.Idx → EReal) (p : Fin 2048) (a : Fin 16) :
    FloatOps.matmul (F := Ideal) (φ₁ := .bf16) (φ₂ := .bf16) d16 none X
        (transpose S64x16 [1, 0] W transposes_S16x64_p1_0_S64x16) (constant (F := Ideal) S2048x16 .f32 0x00000000#32) (ix2 p a)
      = ∑ k : Fin 64, X (ix2 p k) * W (ix2 a k) := by
  refine (Ideal.matmul_constant_zero_apply (φ₁ := .bf16) (φ₂ := .bf16) d16 none X _ (ix2 p a)).trans ?_
  refine (Cert.Sage.LibDot.sum_plain d16 rfl rfl d16_l0 d16_l1 d16_r0 d16_r1 X
    (transpose S64x16 [1, 0] W transposes_S16x64_p1_0_S64x16) p a).trans ?_
  exact Finset.sum_congr rfl fun k _ => congrArg (X (ix2 p k) * ·) (tr16 W k a)

/-- A one-row table of 64 entries repeated down the block's rows. -/
theorem bias64 (b : S1x64.Idx → EReal) (p : Fin 2048) (j : Fin 64) :
    broadcastTo S2048x64 (shapeCast S1x64 b shapeCasts_S1x64_S1x64) broadcasts_S1x64_S2048x64 (ix2 p j) = b (ix2 (0 : Fin 1) j) :=
  Cert.LibDense.bias_apply b shapeCasts_S1x64_S1x64 broadcasts_S1x64_S2048x64 p j

/-- A one-row table of 16 entries repeated down the block's rows. -/
theorem bias16 (b : S1x16.Idx → EReal) (p : Fin 2048) (a : Fin 16) :
    broadcastTo S2048x16 (shapeCast S1x16 b shapeCasts_S1x16_S1x16) broadcasts_S1x16_S2048x16 (ix2 p a) = b (ix2 (0 : Fin 1) a) :=
  Cert.LibDense.bias_apply b shapeCasts_S1x16_S1x16 broadcasts_S1x16_S2048x16 p a

end Cert.Lstm.Kern

end
-- ==== Proof.KPay.lean ====
/-
  The body's values of one block, read at an entry.

  With x0, x1, x2 the block's rows of the three batched inputs and the other loads the weight tables, entry (p, j) of
  each value the body computes is a function of ROW p of x0, x1, x2 only: the projected row, the four gates'
  pre-activations of it, the new cell and hidden rows, the action row. Each lemma below reads one payload at (p, j);
  the re-shapings between [2048, 64] and [1, 2048, 64] keep the row-major position, so (p, k) and (0, p, k) name
  the same element.
-/
import proofs.«103413_j58136677318825_1_alg».proof.Proof.Gen.KernelIdeal.Skeleton
import proofs.«103413_j58136677318825_1_alg».proof.Proof.KMat
import proofs.«103413_j58136677318825_1_alg».proof.Proof.Spec

noncomputable section

open scoped BigOperators

namespace Cert.Lstm.Kern

open Idealize.ShloMosaic Idealize.ShloMosaic.ValueIdx Cert.KernelIdeal Cert.KernelIdeal.Gen Cert.Lstm

theorem logistic_ix {s : Shape} (a : FVec Ideal s .f32) (i : s.Idx) : logistic a i = Ideal.logistic (a i) := rfl
theorem tanh_ix {s : Shape} (a : FVec Ideal s .f32) (i : s.Idx) : tanh a i = Ideal.tanh (a i) := rfl

/-- Element (p, k) of a [1, 2048, 64] block re-shaped to [2048, 64] is its element (0, p, k). -/
theorem unlead_ix (v : S1x2048x64.Idx → EReal) (p : Fin 2048) (k : Fin 64) :
    shapeCast S2048x64 v shapeCasts_S1x2048x64_S2048x64 (ix2 p k) = v (ix3 (0 : Fin 1) p k) :=
  shapeCast_apply v shapeCasts_S1x2048x64_S2048x64 (ix2 p k) (ix3 (0 : Fin 1) p k) (by
    rw [Shape.rowMajor_val_three, Shape.rowMajor_val_two]
    show (0 * 2048 + p.val) * 64 + k.val = p.val * 64 + k.val
    omega)

/-- Element (0, p, k) of a [2048, 64] block re-shaped to [1, 2048, 64] is its element (p, k). -/
theorem lead_ix (v : S2048x64.Idx → EReal) (u : Fin 1) (p : Fin 2048) (k : Fin 64) :
    shapeCast S1x2048x64 v shapeCasts_S2048x64_S1x2048x64 (ix3 u p k) = v (ix2 p k) :=
  shapeCast_apply v shapeCasts_S2048x64_S1x2048x64 (ix3 u p k) (ix2 p k) (by
    rw [Shape.rowMajor_val_three, Shape.rowMajor_val_two]
    show p.val * 64 + k.val = (u.val * 2048 + p.val) * 64 + k.val
    have := u.isLt
    omega)

/-- The previous cell state's row. -/
theorem pay6_ix (v3 : Vec Ideal S1x2048x64 .f32) (p : Fin 2048) (k : Fin 64) :
    k0_pay6 v3 (ix2 p k) = v3 (ix3 (0 : Fin 1) p k) := unlead_ix v3 p k

/-- The previous hidden state's row (the change of float format is the identity). -/
theorem pay8_ix (v1 : Vec Ideal S1x2048x64 .f32) (p : Fin 2048) (k : Fin 64) :
    k0_pay8 v1 (ix2 p k) = v1 (ix3 (0 : Fin 1) p k) := unlead_ix v1 p k

/-- A weight table through an identity re-shaping and a change of float format is itself. -/
theorem pay10_eq (v32 : Vec Ideal S64x64 .f32) : k0_pay10 v32 = v32 := by
  unfold k0_pay10
  exact shapeCast_self v32 shapeCasts_S64x64_S64x64

/-- The projected row:  x_j = Σ_k o_k · Win(j, k) + bin(j). -/
theorem pay7_ix (v0 : Vec Ideal S2048x64 .f32) (v6 : Vec Ideal S64x64 .f32) (v10 : Vec Ideal S1x64 .f32)
    (p : Fin 2048) (j : Fin 64) :
    k0_pay7 v0 v6 v10 (ix2 p j)
      = proj (fun j k => v6 (ix2 j k)) (fun j => v10 (ix2 (0 : Fin 1) j)) (row2 v0 p) j := by
  unfold k0_pay7
  refine (addf_apply _ _ (ix2 p j)).trans ?_
  exact congrArg₂ (· + ·) (mm64 v0 v6 p j) (bias64 v10 p j)

/-- A gate's pre-activation at (p, j), for any block X of projected rows and H of hidden rows, the two weight
    tables through an identity re-shaping. -/
theorem gate_ix (X H : S2048x64.Idx → EReal) (Wa Wb : S64x64.Idx → EReal) (b : S1x64.Idx → EReal)
    (p : Fin 2048) (j : Fin 64) :
    addf (F := Ideal) (φ := .f32)
        (addf (F := Ideal) (φ := .f32)
          (matmul (F := Ideal) (φ₁ := .bf16) (φ₂ := .bf16) d64 none X
            (transpose S64x64 [1, 0] (shapeCast S64x64 Wa shapeCasts_S64x64_S64x64) transposes_S64x64_p1_0_S64x64)
            (constant S2048x64 .f32 0x00000000#32))
          (matmul (F := Ideal) (φ₁ := .bf16) (φ₂ := .bf16) d64 none H
            (transpose S64x64 [1, 0] (shapeCast S64x64 Wb shapeCasts_S64x64_S64x64) transposes_S64x64_p1_0_S64x64)
            (constant S2048x64 .f32 0x00000000#32)))
        (broadcastTo S2048x64 (shapeCast S1x64 b shapeCasts_S1x64_S1x64) broadcasts_S1x64_S2048x64) (ix2 p j)
      = pre (fun j k => Wa (ix2 j k)) (fun j k => Wb (ix2 j k)) (fun j => b (ix2 (0 : Fin 1) j))
          (fun k => X (ix2 p k)) (fun k => H (ix2 p k)) j := by
  rw [shapeCast_self Wa, shapeCast_self Wb]
  refine (addf_apply _ _ (ix2 p j)).trans ?_
  exact congrArg₂ (· + ·) ((addf_apply _ _ (ix2 p j)).trans (congrArg₂ (· + ·) (mm64 X Wa p j) (mm64 H Wb p j)))
    (bias64 b p j)

/-- The same with the first weight table already re-shaped (it reaches the product as a value). -/
theorem gate_ix' (X H : S2048x64.Idx → EReal) (Wa Wb : S64x64.Idx → EReal) (b : S1x64.Idx → EReal)
    (p : Fin 2048) (j : Fin 64) :
    addf (F := Ideal) (φ := .f32)
        (addf (F := Ideal) (φ := .f32)
          (matmul (F := Ideal) (φ₁ := .bf16) (φ₂ := .bf16) d64 none X
            (transpose S64x64 [1, 0] Wa transposes_S64x64_p1_0_S64x64)
            (constant S2048x64 .f32 0x00000000#32))
          (matmul (F := Ideal) (φ₁ := .bf16) (φ₂ := .bf16) d64 none H
            (transpose S64x64 [1, 0] (shapeCast S64x64 Wb shapeCasts_S64x64_S64x64) transposes_S64x64_p1_0_S64x64)
            (constant S2048x64 .f32 0x00000000#32)))
        (broadcastTo S2048x64 (shapeCast S1x64 b shapeCasts_S1x64_S1x64) broadcasts_S1x64_S2048x64) (ix2 p j)
      = pre (fun j k => Wa (ix2 j k)) (fun j k => Wb (ix2 j k)) (fun j => b (ix2 (0 : Fin 1) j))
          (fun k => X (ix2 p k)) (fun k => H (ix2 p k)) j := by
  rw [shapeCast_self Wb]
  refine (addf_apply _ _ (ix2 p j)).trans ?_
  exact congrArg₂ (· + ·) ((addf_apply _ _ (ix2 p j)).trans (congrArg₂ (· + ·) (mm64 X Wa p j) (mm64 H Wb p j)))
    (bias64 b p j)

/-- The input gate: σ of its pre-activation. -/
theorem pay9_ix (v0 : Vec Ideal S2048x64 .f32) (v1 : Vec Ideal S1x2048x64 .f32) (v6 : Vec Ideal S64x64 .f32)
    (v10 : Vec Ideal S1x64 .f32) (v16 v19 : Vec Ideal S64x64 .f32) (v27 : Vec Ideal S1x64 .f32)
    (p : Fin 2048) (j : Fin 64) :
    k0_pay9 v0 v1 v6 v10 v16 v19 v27 (ix2 p j)
      = Ideal.logistic (pre (fun j k => v16 (ix2 j k)) (fun j k => v19 (ix2 j k)) (fun j => v27 (ix2 (0 : Fin 1) j))
          (fun k => k0_pay7 v0 v6 v10 (ix2 p k)) (fun k => k0_pay8 v1 (ix2 p k)) j) := by
  unfold k0_pay9
  refine (logistic_ix _ (ix2 p j)).trans (congrArg Ideal.logistic ?_)
  exact gate_ix (k0_pay7 v0 v6 v10) (k0_pay8 v1) v16 v19 v27 p j

/-- The forget gate: σ of its pre-activation. -/
theorem pay11_ix (v14 v15 : FVec Ideal S2048x64 .bf16) (v34 : FVec Ideal S64x64 .bf16) (v35 : Vec Ideal S64x64 .f32)
    (v43 : Vec Ideal S1x64 .f32) (p : Fin 2048) (j : Fin 64) :
    k0_pay11 v14 v15 v34 v35 v43 (ix2 p j)
      = Ideal.logistic (pre (fun j k => v34 (ix2 j k)) (fun j k => v35 (ix2 j k)) (fun j => v43 (ix2 (0 : Fin 1) j))
          (fun k => v14 (ix2 p k)) (fun k => v15 (ix2 p k)) j) := by
  unfold k0_pay11
  refine (logistic_ix _ (ix2 p j)).trans (congrArg Ideal.logistic ?_)
  exact gate_ix' v14 v15 v34 v35 v43 p j

/-- The candidate: tanh of its pre-activation. -/
theorem pay12_ix (v14 v15 : FVec Ideal S2048x64 .bf16) (v48 v51 : Vec Ideal S64x64 .f32) (v59 : Vec Ideal S1x64 .f32)
    (p : Fin 2048) (j : Fin 64) :
    k0_pay12 v14 v15 v48 v51 v59 (ix2 p j)
      = Ideal.tanh (pre (fun j k => v48 (ix2 j k)) (fun j k => v51 (ix2 j k)) (fun j => v59 (ix2 (0 : Fin 1) j))
          (fun k => v14 (ix2 p k)) (fun k => v15 (ix2 p k)) j) := by
  unfold k0_pay12
  refine (tanh_ix _ (ix2 p j)).trans (congrArg Ideal.tanh ?_)
  exact gate_ix v14 v15 v48 v51 v59 p j

/-- The output gate's two products, before its bias. -/
theorem pay13_ix (v14 v15 : FVec Ideal S2048x64 .bf16) (v64 v67 : Vec Ideal S64x64 .f32) (p : Fin 2048) (j : Fin 64) :
    k0_pay13 v14 v15 v64 v67 (ix2 p j)
      = (∑ k : Fin 64, v14 (ix2 p k) * v64 (ix2 j k)) + (∑ k : Fin 64, v15 (ix2 p k) * v67 (ix2 j k)) := by
  unfold k0_pay13
  rw [shapeCast_self v64, shapeCast_self v67]
  exact (addf_apply _ _ (ix2 p j)).trans (congrArg₂ (· + ·) (mm64 v14 v64 p j) (mm64 v15 v67 p j))

/-- The new cell row:  c' = f · c + i · g. -/
theorem pay1_ix (v4 v31 v47 v63 : FVec Ideal S2048x64 .f32) (p : Fin 2048) (j : Fin 64) :
    k0_pay1 v4 v31 v47 v63 (ix2 p j) = v47 (ix2 p j) * v4 (ix2 p j) + v31 (ix2 p j) * v63 (ix2 p j) := rfl

/-- The new hidden row:  h' = σ(o's pre-activation) · tanh c'. -/
theorem pay2_ix (v4 v31 v47 v63 v74 : FVec Ideal S2048x64 .f32) (v75 : Vec Ideal S1x64 .f32) (p : Fin 2048) (j : Fin 64) :
    k0_pay2 v4 v31 v47 v63 v74 v75 (ix2 p j)
      = Ideal.logistic (v74 (ix2 p j) + v75 (ix2 (0 : Fin 1) j)) * Ideal.tanh (k0_pay1 v4 v31 v47 v63 (ix2 p j)) := by
  unfold k0_pay2
  refine (mulf_apply _ _ (ix2 p j)).trans ?_
  refine congrArg₂ (· * ·) ((logistic_ix _ (ix2 p j)).trans (congrArg Ideal.logistic ?_)) (tanh_ix _ (ix2 p j))
  exact (addf_apply _ _ (ix2 p j)).trans (congrArg (v74 (ix2 p j) + ·) (bias64 v75 p j))

/-- The action row: the output layer of the new hidden row, squashed and rescaled, the constants as printed. -/
theorem pay3_ix (v4 v31 v47 v63 v74 : FVec Ideal S2048x64 .f32) (v75 : Vec Ideal S1x64 .f32) (v85 : Vec Ideal S16x64 .f32)
    (v90 : Vec Ideal S1x16 .f32) (p : Fin 2048) (a : Fin 16) :
    k0_pay3 v4 v31 v47 v63 v74 v75 v85 v90 (ix2 p a)
      = Ideal.ofBits .f32 0xBF800000#32
        + ((Ideal.tanh ((∑ k : Fin 64, k0_pay2 v4 v31 v47 v63 v74 v75 (ix2 p k) * v85 (ix2 a k)) + v90 (ix2 (0 : Fin 1) a))
            + Ideal.ofBits .f32 0x3F800000#32) * Ideal.ofBits .f32 0x3F000000#32) * Ideal.ofBits .f32 0x40000000#32 := by
  unfold k0_pay3
  refine (addf_apply _ _ (ix2 p a)).trans (congrArg (Ideal.ofBits .f32 0xBF800000#32 + ·) ?_)
  refine (mulf_apply _ _ (ix2 p a)).trans (congrArg (· * Ideal.ofBits .f32 0x40000000#32) ?_)
  refine (mulf_apply _ _ (ix2 p a)).trans (congrArg (· * Ideal.ofBits .f32 0x3F000000#32) ?_)
  refine (addf_apply _ _ (ix2 p a)).trans (congrArg (· + Ideal.ofBits .f32 0x3F800000#32) ?_)
  refine (tanh_ix _ (ix2 p a)).trans (congrArg Ideal.tanh ?_)
  refine (addf_apply _ _ (ix2 p a)).trans ?_
  exact congrArg₂ (· + ·) (mm16 (k0_pay2 v4 v31 v47 v63 v74 v75) v85 p a) (bias16 v90 p a)

end Cert.Lstm.Kern

end
-- ==== Proof.KBlock.lean ====
/-
  What one grid point leaves in its three output blocks.

  The body loads every window's block whole and stores each result whole, so the three output blocks are the body's
  payloads of the loaded blocks. Read entry by entry they are the new cell state, the new hidden state and the action
  of a batch of 2048 rows — the block's rows of the three batched inputs — under the weights found in the point's
  constant blocks: the same functions that describe the whole batch, at n = 2048.
-/
import proofs.«103413_j58136677318825_1_alg».proof.Proof.Gen.KernelIdeal.Frame
import proofs.«103413_j58136677318825_1_alg».proof.Proof.KPay

noncomputable section

open scoped BigOperators

namespace Cert.Lstm.Kern

open Idealize.ShloMosaic Idealize.ShloMosaic.ValueIdx Cert.KernelIdeal Cert.KernelIdeal.Gen Cert.Lstm

/-- The cell's weights as the body finds them in a point's constant blocks: the projection, the four gates' two
    tables (already one table per gate) and one-row biases, the output layer. -/
def blockParams (x3 : S64x64.Idx → EReal) (x4 : S1x64.Idx → EReal) (x5 x6 x7 x8 x9 x10 x11 x12 : S64x64.Idx → EReal)
    (x13 x14 x15 x16 : S1x64.Idx → EReal) (x17 : S16x64.Idx → EReal) (x18 : S1x16.Idx → EReal) : Params where
  Win := fun j k => x3 (ix2 j k)
  bin := fun j => x4 (ix2 (0 : Fin 1) j)
  Wxi := fun j k => x5 (ix2 j k)
  Wxf := fun j k => x6 (ix2 j k)
  Wxg := fun j k => x7 (ix2 j k)
  Wxo := fun j k => x8 (ix2 j k)
  Whi := fun j k => x9 (ix2 j k)
  Whf := fun j k => x10 (ix2 j k)
  Whg := fun j k => x11 (ix2 j k)
  Who := fun j k => x12 (ix2 j k)
  bi := fun j => x13 (ix2 (0 : Fin 1) j)
  bf := fun j => x14 (ix2 (0 : Fin 1) j)
  bg := fun j => x15 (ix2 (0 : Fin 1) j)
  bo := fun j => x16 (ix2 (0 : Fin 1) j)
  Wout := fun a k => x17 (ix2 a k)
  bout := fun a => x18 (ix2 (0 : Fin 1) a)

theorem hz2 : (![0, 0] : Fin 2 → Nat) = fun _ => 0 := funext fun a => by fin_cases a <;> rfl
theorem hz3 : (![0, 0, 0] : Fin 3 → Nat) = fun _ => 0 := funext fun a => by fin_cases a <;> rfl

variable (x0 : Vec Ideal S2048x64 .f32) (x1 x2 : Vec Ideal S1x2048x64 .f32) (x3 : Vec Ideal S64x64 .f32)
  (x4 : Vec Ideal S1x64 .f32) (x5 x6 x7 x8 x9 x10 x11 x12 : Vec Ideal S64x64 .f32) (x13 x14 x15 x16 : Vec Ideal S1x64 .f32)
  (x17 : Vec Ideal S16x64 .f32) (x18 : Vec Ideal S1x16 .f32)

/-- The new cell row of block row p. -/
theorem c_ix (p : Fin 2048) (j : Fin 64) :
    k0_pay1 (k0_pay6 x2) (k0_pay9 x0 x1 x3 x4 x5 x9 x13)
        (k0_pay11 (k0_pay7 x0 x3 x4) (k0_pay8 x1) (k0_pay10 x6) x10 x14)
        (k0_pay12 (k0_pay7 x0 x3 x4) (k0_pay8 x1) x7 x11 x15) (ix2 p j)
      = cellC (blockParams x3 x4 x5 x6 x7 x8 x9 x10 x11 x12 x13 x14 x15 x16 x17 x18) (row2 x0 p) (row3 x1 p) (row3 x2 p) j := by
  rw [pay1_ix, pay6_ix, pay9_ix, pay11_ix, pay12_ix, pay10_eq]
  simp only [pay7_ix, pay8_ix]
  rfl

/-- The new hidden row of block row p. -/
theorem h_ix (p : Fin 2048) (j : Fin 64) :
    k0_pay2 (k0_pay6 x2) (k0_pay9 x0 x1 x3 x4 x5 x9 x13)
        (k0_pay11 (k0_pay7 x0 x3 x4) (k0_pay8 x1) (k0_pay10 x6) x10 x14)
        (k0_pay12 (k0_pay7 x0 x3 x4) (k0_pay8 x1) x7 x11 x15)
        (k0_pay13 (k0_pay7 x0 x3 x4) (k0_pay8 x1) x8 x12) x16 (ix2 p j)
      = cellH (blockParams x3 x4 x5 x6 x7 x8 x9 x10 x11 x12 x13 x14 x15 x16 x17 x18) (row2 x0 p) (row3 x1 p) (row3 x2 p) j := by
  rw [pay2_ix, c_ix, pay13_ix]
  simp only [pay7_ix, pay8_ix]
  rfl

/-- Output block 21 is the new cell state of the block's 2048 rows. -/
theorem blockC :
    out0_21 x0 x1 x2 x3 x4 x5 x6 x7 x8 x9 x10 x11 x12 x13 x14 x15 x16 x17 x18
      = outC (n := 2048) (blockParams x3 x4 x5 x6 x7 x8 x9 x10 x11 x12 x13 x14 x15 x16 x17 x18) x0 x1 x2 := by
  funext y
  obtain ⟨u, p, j, rfl⟩ : ∃ (u : Fin 1) (p : Fin 2048) (j : Fin 64), y = ix3 u p j := ⟨y 0, y 1, y 2, eq_ix3 y⟩
  rw [outC_ix]
  unfold out0_21
  rw [View.canon_unit_zero hz3]
  simp only [View.ld_unit_zero (S := S2048x64) hz2, View.ld_unit_zero (S := S1x2048x64) hz3,
    View.ld_unit_zero (S := S64x64) hz2, View.ld_unit_zero (S := S1x64) hz2]
  unfold k0_pay5
  exact (lead_ix _ u p j).trans (c_ix x0 x1 x2 x3 x4 x5 x6 x7 x8 x9 x10 x11 x12 x13 x14 x15 x16 x17 x18 p j)

/-- Output block 20 is the new hidden state of the block's 2048 rows. -/
theorem blockH :
    out0_20 x0 x1 x2 x3 x4 x5 x6 x7 x8 x9 x10 x11 x12 x13 x14 x15 x16 x17 x18
      = outH (n := 2048) (blockParams x3 x4 x5 x6 x7 x8 x9 x10 x11 x12 x13 x14 x15 x16 x17 x18) x0 x1 x2 := by
  funext y
  obtain ⟨u, p, j, rfl⟩ : ∃ (u : Fin 1) (p : Fin 2048) (j : Fin 64), y = ix3 u p j := ⟨y 0, y 1, y 2, eq_ix3 y⟩
  rw [outH_ix]
  unfold out0_20
  rw [View.canon_unit_zero hz3]
  simp only [View.ld_unit_zero (S := S2048x64) hz2, View.ld_unit_zero (S := S1x2048x64) hz3,
    View.ld_unit_zero (S := S64x64) hz2, View.ld_unit_zero (S := S1x64) hz2]
  unfold k0_pay4
  exact (lead_ix _ u p j).trans (h_ix x0 x1 x2 x3 x4 x5 x6 x7 x8 x9 x10 x11 x12 x13 x14 x15 x16 x17 x18 p j)

/-- Output block 19 is the action of the block's 2048 rows. -/
theorem blockA :
    out0_19 x0 x1 x2 x3 x4 x5 x6 x7 x8 x9 x10 x11 x12 x13 x14 x15 x16 x17 x18
      = outA (n := 2048) (blockParams x3 x4 x5 x6 x7 x8 x9 x10 x11 x12 x13 x14 x15 x16 x17 x18) x0 x1 x2 := by
  funext y
  obtain ⟨p, a, rfl⟩ : ∃ (p : Fin 2048) (a : Fin 16), y = ix2 p a := ⟨y 0, y 1, eq_ix2 y⟩
  rw [outA_ix]
  unfold out0_19
  rw [View.canon_unit_zero hz2]
  simp only [View.ld_unit_zero (S := S2048x64) hz2, View.ld_unit_zero (S := S1x2048x64) hz3,
    View.ld_unit_zero (S := S64x64) hz2, View.ld_unit_zero (S := S1x64) hz2, View.ld_unit_zero (S := S16x64) hz2,
    View.ld_unit_zero (S := S1x16) hz2]
  refine (pay3_ix _ _ _ _ _ _ _ _ p a).trans ?_
  simp only [h_ix x0 x1 x2 x3 x4 x5 x6 x7 x8 x9 x10 x11 x12 x13 x14 x15 x16 x17 x18 p]
  rfl

end Cert.Lstm.Kern

end
-- ==== Proof.KHostCases.lean ====
/-
  Case by case: what each operand the host prepared holds, and that each weight window holds its whole table.

  One statement per operand the host wrote before the call (a 64-row part of a 256-row table; the sum of two 64-entry
  parts of the bias vectors laid as one row; a vector laid as one row), read off the host operations; and, for each of
  the sixteen windows that do not move over the grid, that its index map is (0, 0) at all 128 points (decided) and hence
  that its block at any point is the whole operand.
-/
import proofs.«103413_j58136677318825_1_alg».proof.Proof.Gen.KernelIdeal.Frame
import Idealize.ShloMosaic.PureOps.Ideal
import Idealize.ShloMosaic.Lib.StableHlo.Run
import Idealize.ShloMosaic.Lib.Pipeline.Value

noncomputable section

namespace Cert.Lstm.Kern

open Idealize.ShloMosaic Idealize.ShloMosaic.TcCoe Idealize.SL.Sem Cert.KernelIdeal Cert.KernelIdeal.Gen

variable (m : (ℓ : Loc nD τ sig) → Buf (Elt Ideal) ℓ) (c : Dev nD)

/-! ## The operands the host prepared -/

theorem V_v0 : (V m c main_v0 : S64x64.Idx → EReal)
    = extractStridedSlice S64x64 ![0, 0] (m ((c : Thread nD τ).loc main_arg5)) slices_S256x64_S64x64_0_0 := by
  dsimp only [Gen.V, Gen.hostOps0]; after_results

theorem V_v1 : (V m c main_v1 : S64x64.Idx → EReal)
    = extractStridedSlice S64x64 ![64, 0] (m ((c : Thread nD τ).loc main_arg5)) slices_S256x64_S64x64_64_0 := by
  dsimp only [Gen.V, Gen.hostOps0]; after_results

theorem V_v2 : (V m c main_v2 : S64x64.Idx → EReal)
    = extractStridedSlice S64x64 ![128, 0] (m ((c : Thread nD τ).loc main_arg5)) slices_S256x64_S64x64_128_0 := by
  dsimp only [Gen.V, Gen.hostOps0]; after_results

theorem V_v3 : (V m c main_v3 : S64x64.Idx → EReal)
    = extractStridedSlice S64x64 ![192, 0] (m ((c : Thread nD τ).loc main_arg5)) slices_S256x64_S64x64_192_0 := by
  dsimp only [Gen.V, Gen.hostOps0]; after_results

theorem V_v4 : (V m c main_v4 : S64x64.Idx → EReal)
    = extractStridedSlice S64x64 ![0, 0] (m ((c : Thread nD τ).loc main_arg6)) slices_S256x64_S64x64_0_0 := by
  dsimp only [Gen.V, Gen.hostOps0]; after_results

theorem V_v5 : (V m c main_v5 : S64x64.Idx → EReal)
    = extractStridedSlice S64x64 ![64, 0] (m ((c : Thread nD τ).loc main_arg6)) slices_S256x64_S64x64_64_0 := by
  dsimp only [Gen.V, Gen.hostOps0]; after_results

theorem V_v6 : (V m c main_v6 : S64x64.Idx → EReal)
    = extractStridedSlice S64x64 ![128, 0] (m ((c : Thread nD τ).loc main_arg6)) slices_S256x64_S64x64_128_0 := by
  dsimp only [Gen.V, Gen.hostOps0]; after_results

theorem V_v7 : (V m c main_v7 : S64x64.Idx → EReal)
    = extractStridedSlice S64x64 ![192, 0] (m ((c : Thread nD τ).loc main_arg6)) slices_S256x64_S64x64_192_0 := by
  dsimp only [Gen.V, Gen.hostOps0]; after_results

theorem V_v17 : (V m c main_v17 : S1x64.Idx → EReal)
    = shapeCast S1x64 (addf (F := Ideal) (φ := .f32) (extractStridedSlice S64 ![0] (m ((c : Thread nD τ).loc main_arg7)) slices_S256_S64_0)
        (extractStridedSlice S64 ![0] (m ((c : Thread nD τ).loc main_arg8)) slices_S256_S64_0)) shapeCasts_S64_S1x64 := by
  dsimp only [Gen.V, Gen.hostOps0]; after_results; rfl

theorem V_v19 : (V m c main_v19 : S1x64.Idx → EReal)
    = shapeCast S1x64 (addf (F := Ideal) (φ := .f32) (extractStridedSlice S64 ![64] (m ((c : Thread nD τ).loc main_arg7)) slices_S256_S64_64)
        (extractStridedSlice S64 ![64] (m ((c : Thread nD τ).loc main_arg8)) slices_S256_S64_64)) shapeCasts_S64_S1x64 := by
  dsimp only [Gen.V, Gen.hostOps0]; after_results; rfl

theorem V_v21 : (V m c main_v21 : S1x64.Idx → EReal)
    = shapeCast S1x64 (addf (F := Ideal) (φ := .f32) (extractStridedSlice S64 ![128] (m ((c : Thread nD τ).loc main_arg7)) slices_S256_S64_128)
        (extractStridedSlice S64 ![128] (m ((c : Thread nD τ).loc main_arg8)) slices_S256_S64_128)) shapeCasts_S64_S1x64 := by
  dsimp only [Gen.V, Gen.hostOps0]; after_results; rfl

theorem V_v23 : (V m c main_v23 : S1x64.Idx → EReal)
    = shapeCast S1x64 (addf (F := Ideal) (φ := .f32) (extractStridedSlice S64 ![192] (m ((c : Thread nD τ).loc main_arg7)) slices_S256_S64_192)
        (extractStridedSlice S64 ![192] (m ((c : Thread nD τ).loc main_arg8)) slices_S256_S64_192)) shapeCasts_S64_S1x64 := by
  dsimp only [Gen.V, Gen.hostOps0]; after_results; rfl

theorem V_v24 : (V m c main_v24 : S1x64.Idx → EReal) = shapeCast S1x64 (m ((c : Thread nD τ).loc main_arg4)) shapeCasts_S64_S1x64 := by
  dsimp only [Gen.V, Gen.hostOps0]; after_results; rfl

theorem V_v25 : (V m c main_v25 : S1x16.Idx → EReal) = shapeCast S1x16 (m ((c : Thread nD τ).loc main_arg10)) shapeCasts_S16_S1x16 := by
  dsimp only [Gen.V, Gen.hostOps0]; after_results; rfl

/-! ## The windows that stay at block (0, 0) -/

theorem idx3 : ∀ t : Fin cfg0.N, win0_3.index t (0 : Fin 2) = 0 ∧ win0_3.index t (1 : Fin 2) = 0 :=
  (by decide +kernel : ∀ t : Fin grid0.N, _)

theorem blk3 (t : Fin cfg0.N) : (iblk m c 3 t : S64x64.Idx → EReal) = V m c main_arg3 := by
  funext y
  obtain ⟨e0, e1⟩ := idx3 t
  show V m c main_arg3 (((cfg0.win 3).blk t).view.emb y) = V m c main_arg3 y
  refine congrArg (V m c main_arg3) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem idx4 : ∀ t : Fin cfg0.N, win0_4.index t (0 : Fin 2) = 0 ∧ win0_4.index t (1 : Fin 2) = 0 :=
  (by decide +kernel : ∀ t : Fin grid0.N, _)

theorem blk4 (t : Fin cfg0.N) : (iblk m c 4 t : S1x64.Idx → EReal) = V m c main_v24 := by
  funext y
  obtain ⟨e0, e1⟩ := idx4 t
  show V m c main_v24 (((cfg0.win 4).blk t).view.emb y) = V m c main_v24 y
  refine congrArg (V m c main_v24) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem idx5 : ∀ t : Fin cfg0.N, win0_5.index t (0 : Fin 2) = 0 ∧ win0_5.index t (1 : Fin 2) = 0 :=
  (by decide +kernel : ∀ t : Fin grid0.N, _)

theorem blk5 (t : Fin cfg0.N) : (iblk m c 5 t : S64x64.Idx → EReal) = V m c main_v0 := by
  funext y
  obtain ⟨e0, e1⟩ := idx5 t
  show V m c main_v0 (((cfg0.win 5).blk t).view.emb y) = V m c main_v0 y
  refine congrArg (V m c main_v0) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem idx6 : ∀ t : Fin cfg0.N, win0_6.index t (0 : Fin 2) = 0 ∧ win0_6.index t (1 : Fin 2) = 0 :=
  (by decide +kernel : ∀ t : Fin grid0.N, _)

theorem blk6 (t : Fin cfg0.N) : (iblk m c 6 t : S64x64.Idx → EReal) = V m c main_v1 := by
  funext y
  obtain ⟨e0, e1⟩ := idx6 t
  show V m c main_v1 (((cfg0.win 6).blk t).view.emb y) = V m c main_v1 y
  refine congrArg (V m c main_v1) (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem idx7 : ∀ t : Fin cfg0.N, win0_7.index t (0 : Fin 2) = 0 ∧ win0_7.index t (1 : Fin 2) = 0 :=
  (by decide +kernel : ∀ t : Fin grid0.N, _)

theorem blk7 (t : Fin cfg0.N) : (iblk m c 7 t : S64x64.Idx → EReal) = V m c main_v2 := by
  funext y
  obtain ⟨e0, e1⟩ := idx7 t
  show V m c main_v2 (((cfg0.win 7).blk t).view.emb y) = V m c main_v2 y
  refine congrArg (V m c main_v2) (funext fun a => Fin.ext ?_)
  match a with
  | ⟨0, _⟩ => show win0_7.index t (0 : Fin 2) * 64 + 1 * (y 0).val = (y 0).val; omega
  | ⟨1, _⟩ => show win0_7.index t (1 : Fin 2) * 64 + 1 * (y 1).val = (y 1).val; omega

theorem idx8 : ∀ t : Fin cfg0.N, win0_8.index t (0 : Fin 2) = 0 ∧ win0_8.index t (1 : Fin 2) = 0 :=
  (by decide +kernel : ∀ t : Fin grid0.N, _)

theorem blk8 (t : Fin cfg0.N) : (iblk m c 8 t : S64x64.Idx → EReal) = V m c main_v3 := by
  funext y
  obtain ⟨e0, e1⟩ := idx8 t
  show V m c main_v3 (((cfg0.win 8).blk t).view.emb y) = V m c main_v3 y
  refine congrArg (V m c main_v3) (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

theorem idx9 : ∀ t : Fin cfg0.N, win0_9.index t (0 : Fin 2) = 0 ∧ win0_9.index t (1 : Fin 2) = 0 :=
  (by decide +kernel : ∀ t : Fin grid0.N, _)

theorem blk9 (t : Fin cfg0.N) : (iblk m c 9 t : S64x64.Idx → EReal) = V m c main_v4 := by
  funext y
  obtain ⟨e0, e1⟩ := idx9 t
  show V m c main_v4 (((cfg0.win 9).blk t).view.emb y) = V m c main_v4 y
  refine congrArg (V m c main_v4) (funext fun a => Fin.ext ?_)
  match a with
  | ⟨0, _⟩ => show win0_9.index t (0 : Fin 2) * 64 + 1 * (y 0).val = (y 0).val; omega
  | ⟨1, _⟩ => show win0_9.index t (1 : Fin 2) * 64 + 1 * (y 1).val = (y 1).val; omega

theorem idx10 : ∀ t : Fin cfg0.N, win0_10.index t (0 : Fin 2) = 0 ∧ win0_10.index t (1 : Fin 2) = 0 :=
  (by decide +kernel : ∀ t : Fin grid0.N, _)

theorem blk10 (t : Fin cfg0.N) : (iblk m c 10 t : S64x64.Idx → EReal) = V m c main_v5 := by
  funext y
  obtain ⟨e0, e1⟩ := idx10 t
  show V m c main_v5 (((cfg0.win 10).blk t).view.emb y) = V m c main_v5 y
  refine congrArg (V m c main_v5) (funext fun a => Fin.ext ?_)
  match a with
  | ⟨0, _⟩ => show win0_10.index t (0 : Fin 2) * 64 + 1 * (y 0).val = (y 0).val; omega
  | ⟨1, _⟩ => show win0_10.index t (1 : Fin 2) * 64 + 1 * (y 1).val = (y 1).val; omega

theorem idx11 : ∀ t : Fin cfg0.N, win0_11.index t (0 : Fin 2) = 0 ∧ win0_11.index t (1 : Fin 2) = 0 :=
  (by decide +kernel : ∀ t : Fin grid0.N, _)

theorem blk11 (t : Fin cfg0.N) : (iblk m c 11 t : S64x64.Idx → EReal) = V m c main_v6 := by
  funext y
  obtain ⟨e0, e1⟩ := idx11 t
  show V m c main_v6 (((cfg0.win 11).blk t).view.emb y) = V m c main_v6 y
  refine congrArg (V m c main_v6) (funext fun a => Fin.ext ?_)
  match a with
  | ⟨0, _⟩ => show win0_11.index t (0 : Fin 2) * 64 + 1 * (y 0).val = (y 0).val; omega
  | ⟨1, _⟩ => show win0_11.index t (1 : Fin 2) * 64 + 1 * (y 1).val = (y 1).val; omega

theorem idx12 : ∀ t : Fin cfg0.N, win0_12.index t (0 : Fin 2) = 0 ∧ win0_12.index t (1 : Fin 2) = 0 :=
  (by decide +kernel : ∀ t : Fin grid0.N, _)

theorem blk12 (t : Fin cfg0.N) : (iblk m c 12 t : S64x64.Idx → EReal) = V m c main_v7 := by
  funext y
  obtain ⟨e0, e1⟩ := idx12 t
  show V m c main_v7 (((cfg0.win 12).blk t).view.emb y) = V m c main_v7 y
  refine congrArg (V m c main_v7) (funext fun a => Fin.ext ?_)
  match a with
  | ⟨0, _⟩ => show win0_12.index t (0 : Fin 2) * 64 + 1 * (y 0).val = (y 0).val; omega
  | ⟨1, _⟩ => show win0_12.index t (1 : Fin 2) * 64 + 1 * (y 1).val = (y 1).val; omega

theorem idx13 : ∀ t : Fin cfg0.N, win0_13.index t (0 : Fin 2) = 0 ∧ win0_13.index t (1 : Fin 2) = 0 :=
  (by decide +kernel : ∀ t : Fin grid0.N, _)

theorem blk13 (t : Fin cfg0.N) : (iblk m c 13 t : S1x64.Idx → EReal) = V m c main_v17 := by
  funext y
  obtain ⟨e0, e1⟩ := idx13 t
  show V m c main_v17 (((cfg0.win 13).blk t).view.emb y) = V m c main_v17 y
  refine congrArg (V m c main_v17) (funext fun a => Fin.ext ?_)
  match a with
  | ⟨0, _⟩ => show win0_13.index t (0 : Fin 2) * 1 + 1 * (y 0).val = (y 0).val; omega
  | ⟨1, _⟩ => show win0_13.index t (1 : Fin 2) * 64 + 1 * (y 1).val = (y 1).val; omega

theorem idx14 : ∀ t : Fin cfg0.N, win0_14.index t (0 : Fin 2) = 0 ∧ win0_14.index t (1 : Fin 2) = 0 :=
  (by decide +kernel : ∀ t : Fin grid0.N, _)

theorem blk14 (t : Fin cfg0.N) : (iblk m c 14 t : S1x64.Idx → EReal) = V m c main_v19 := by
  funext y
  obtain ⟨e0, e1⟩ := idx14 t
  show V m c main_v19 (((cfg0.win 14).blk t).view.emb y) = V m c main_v19 y
  refine congrArg (V m c main_v19) (funext fun a => Fin.ext ?_)
  match a with
  | ⟨0, _⟩ => show win0_14.index t (0 : Fin 2) * 1 + 1 * (y 0).val = (y 0).val; omega
  | ⟨1, _⟩ => show win0_14.index t (1 : Fin 2) * 64 + 1 * (y 1).val = (y 1).val; omega

theorem idx15 : ∀ t : Fin cfg0.N, win0_15.index t (0 : Fin 2) = 0 ∧ win0_15.index t (1 : Fin 2) = 0 :=
  (by decide +kernel : ∀ t : Fin grid0.N, _)

theorem blk15 (t : Fin cfg0.N) : (iblk m c 15 t : S1x64.Idx → EReal) = V m c main_v21 := by
  funext y
  obtain ⟨e0, e1⟩ := idx15 t
  show V m c main_v21 (((cfg0.win 15).blk t).view.emb y) = V m c main_v21 y
  refine congrArg (V m c main_v21) (funext fun a => Fin.ext ?_)
  match a with
  | ⟨0, _⟩ => show win0_15.index t (0 : Fin 2) * 1 + 1 * (y 0).val = (y 0).val; omega
  | ⟨1, _⟩ => show win0_15.index t (1 : Fin 2) * 64 + 1 * (y 1).val = (y 1).val; omega

theorem idx16 : ∀ t : Fin cfg0.N, win0_16.index t (0 : Fin 2) = 0 ∧ win0_16.index t (1 : Fin 2) = 0 :=
  (by decide +kernel : ∀ t : Fin grid0.N, _)

theorem blk16 (t : Fin cfg0.N) : (iblk m c 16 t : S1x64.Idx → EReal) = V m c main_v23 := by
  funext y
  obtain ⟨e0, e1⟩ := idx16 t
  show V m c main_v23 (((cfg0.win 16).blk t).view.emb y) = V m c main_v23 y
  refine congrArg (V m c main_v23) (funext fun a => Fin.ext ?_)
  match a with
  | ⟨0, _⟩ => show win0_16.index t (0 : Fin 2) * 1 + 1 * (y 0).val = (y 0).val; omega
  | ⟨1, _⟩ => show win0_16.index t (1 : Fin 2) * 64 + 1 * (y 1).val = (y 1).val; omega

theorem idx17 : ∀ t : Fin cfg0.N, win0_17.index t (0 : Fin 2) = 0 ∧ win0_17.index t (1 : Fin 2) = 0 :=
  (by decide +kernel : ∀ t : Fin grid0.N, _)

theorem blk17 (t : Fin cfg0.N) : (iblk m c 17 t : S16x64.Idx → EReal) = V m c main_arg9 := by
  funext y
  obtain ⟨e0, e1⟩ := idx17 t
  show V m c main_arg9 (((cfg0.win 17).blk t).view.emb y) = V m c main_arg9 y
  refine congrArg (V m c main_arg9) (funext fun a => Fin.ext ?_)
  match a with
  | ⟨0, _⟩ => show win0_17.index t (0 : Fin 2) * 16 + 1 * (y 0).val = (y 0).val; omega
  | ⟨1, _⟩ => show win0_17.index t (1 : Fin 2) * 64 + 1 * (y 1).val = (y 1).val; omega

theorem idx18 : ∀ t : Fin cfg0.N, win0_18.index t (0 : Fin 2) = 0 ∧ win0_18.index t (1 : Fin 2) = 0 :=
  (by decide +kernel : ∀ t : Fin grid0.N, _)

theorem blk18 (t : Fin cfg0.N) : (iblk m c 18 t : S1x16.Idx → EReal) = V m c main_v25 := by
  funext y
  obtain ⟨e0, e1⟩ := idx18 t
  show V m c main_v25 (((cfg0.win 18).blk t).view.emb y) = V m c main_v25 y
  refine congrArg (V m c main_v25) (funext fun a => Fin.ext ?_)
  match a with
  | ⟨0, _⟩ => show win0_18.index t (0 : Fin 2) * 1 + 1 * (y 0).val = (y 0).val; omega
  | ⟨1, _⟩ => show win0_18.index t (1 : Fin 2) * 16 + 1 * (y 1).val = (y 1).val; omega

end Cert.Lstm.Kern

end
-- ==== Proof.KHost.lean ====
/-
  What the region finds in its operands, and each window's block at a grid point.

  Before the call the host cuts the two 256-row weight tables into their four stacked 64-row parts, adds the matching
  64-entry parts of the two 256-entry bias vectors, and lays every vector it passes as a one-row table. So row j of gate
  g's table is row 64·g + j of the 256-row table, and entry j of gate g's bias is the sum of entries 64·g + j of the
  two bias vectors. On the grid of 128 points the three batched inputs and the three outputs move by one block of 2048
  rows per point, and every other window stays at block (0, 0): at point t block row p is batch row 2048·t + p, and
  the weight windows hold their whole tables. Hence the weights the body works with at any point are the weights read
  off the argument tables.
-/
import proofs.«103413_j58136677318825_1_alg».proof.Proof.Gen.KernelIdeal.Frame
import proofs.«103413_j58136677318825_1_alg».proof.Proof.KBlock
import proofs.«103413_j58136677318825_1_alg».proof.Proof.KHostCases
import Idealize.ShloMosaic.Lib.Pipeline.Value

noncomputable section

open scoped BigOperators

namespace Cert.Lstm.Kern

open Idealize.ShloMosaic Idealize.ShloMosaic.ValueIdx Idealize.ShloMosaic.TcCoe Idealize.SL.Sem Cert.KernelIdeal
  Cert.KernelIdeal.Gen Cert.Lstm

/-! ## Parts of a table read at an entry -/

/-- Row j of the part of a 256-row table that starts at row 64·g is the table's row 64·g + j. -/
theorem rows_ix (T : S256x64.Idx → EReal) (off : Nat) (g : Fin 4) (hoff : off = 64 * g.val)
    (h : S256x64.Slices ![off, 0] S64x64) (j k : Fin 64) :
    extractStridedSlice S64x64 ![off, 0] T h (ix2 j k) = T (ix2 (gateRow g j) k) :=
  extractStridedSlice_apply ![off, 0] T h (ix2 j k) (ix2 (gateRow g j) k) (fun a => match a with
    | ⟨0, _⟩ => by show 64 * g.val + j.val = off + j.val; omega
    | ⟨1, _⟩ => by show k.val = 0 + k.val; omega)

/-- Entry j of the part of a 256-entry vector that starts at entry 64·g is the vector's entry 64·g + j. -/
theorem vec_ix (b : S256.Idx → EReal) (off : Nat) (g : Fin 4) (hoff : off = 64 * g.val)
    (h : S256.Slices ![off] S64) (j : Fin 64) :
    extractStridedSlice S64 ![off] b h (ix1 j) = b (ix1 (gateRow g j)) :=
  extractStridedSlice_apply ![off] b h (ix1 j) (ix1 (gateRow g j)) (fun a => match a with
    | ⟨0, _⟩ => by show 64 * g.val + j.val = off + j.val; omega)

/-- A 64-entry vector laid as a one-row table: entry (0, j) is the vector's entry j. -/
theorem row64_ix (b : S64.Idx → EReal) (j : Fin 64) :
    shapeCast S1x64 b shapeCasts_S64_S1x64 (ix2 (0 : Fin 1) j) = b (ix1 j) :=
  shapeCast_apply b shapeCasts_S64_S1x64 (ix2 (0 : Fin 1) j) (ix1 j) (by
    rw [Shape.rowMajor_val_one, Shape.rowMajor_val_two]; show j.val = 0 * 64 + j.val; omega)

/-- A 16-entry vector laid as a one-row table: entry (0, a) is the vector's entry a. -/
theorem row16_ix (b : S16.Idx → EReal) (a : Fin 16) :
    shapeCast S1x16 b shapeCasts_S16_S1x16 (ix2 (0 : Fin 1) a) = b (ix1 a) :=
  shapeCast_apply b shapeCasts_S16_S1x16 (ix2 (0 : Fin 1) a) (ix1 a) (by
    rw [Shape.rowMajor_val_one, Shape.rowMajor_val_two]; show a.val = 0 * 16 + a.val; omega)

/-- Gate g's bias as the host prepares it: entry (0, j) is the sum of entries 64·g + j of the two bias vectors. -/
theorem bias_ix (bx bh : S256.Idx → EReal) (off : Nat) (g : Fin 4) (hoff : off = 64 * g.val)
    (h : S256.Slices ![off] S64) (j : Fin 64) :
    shapeCast S1x64 (addf (F := Ideal) (φ := .f32) (extractStridedSlice S64 ![off] bx h) (extractStridedSlice S64 ![off] bh h))
        shapeCasts_S64_S1x64 (ix2 (0 : Fin 1) j)
      = bx (ix1 (gateRow g j)) + bh (ix1 (gateRow g j)) :=
  (row64_ix _ j).trans ((addf_apply _ _ (ix1 j)).trans
    (congrArg₂ (· + ·) (vec_ix bx off g hoff h j) (vec_ix bh off g hoff h j)))

/-- Two records of weights with the same sixteen tables are the same record. -/
theorem params_ext {P Q : Params} (h1 : P.Win = Q.Win) (h2 : P.bin = Q.bin) (h3 : P.Wxi = Q.Wxi) (h4 : P.Wxf = Q.Wxf)
    (h5 : P.Wxg = Q.Wxg) (h6 : P.Wxo = Q.Wxo) (h7 : P.Whi = Q.Whi) (h8 : P.Whf = Q.Whf) (h9 : P.Whg = Q.Whg)
    (h10 : P.Who = Q.Who) (h11 : P.bi = Q.bi) (h12 : P.bf = Q.bf) (h13 : P.bg = Q.bg) (h14 : P.bo = Q.bo)
    (h15 : P.Wout = Q.Wout) (h16 : P.bout = Q.bout) : P = Q := by
  cases P; cases Q
  simp only [Params.mk.injEq]
  exact ⟨h1, h2, h3, h4, h5, h6, h7, h8, h9, h10, h11, h12, h13, h14, h15, h16⟩

/-- The weights the body finds in the operands the host prepared are the weights read off the argument tables. -/
theorem params_of_host (Win : S64x64.Idx → EReal) (bin : S64.Idx → EReal) (Wih Whh : S256x64.Idx → EReal)
    (bih bhh : S256.Idx → EReal) (Wout : S16x64.Idx → EReal) (bout : S16.Idx → EReal) :
    blockParams Win (shapeCast S1x64 bin shapeCasts_S64_S1x64)
        (extractStridedSlice S64x64 ![0, 0] Wih slices_S256x64_S64x64_0_0)
        (extractStridedSlice S64x64 ![64, 0] Wih slices_S256x64_S64x64_64_0)
        (extractStridedSlice S64x64 ![128, 0] Wih slices_S256x64_S64x64_128_0)
        (extractStridedSlice S64x64 ![192, 0] Wih slices_S256x64_S64x64_192_0)
        (extractStridedSlice S64x64 ![0, 0] Whh slices_S256x64_S64x64_0_0)
        (extractStridedSlice S64x64 ![64, 0] Whh slices_S256x64_S64x64_64_0)
        (extractStridedSlice S64x64 ![128, 0] Whh slices_S256x64_S64x64_128_0)
        (extractStridedSlice S64x64 ![192, 0] Whh slices_S256x64_S64x64_192_0)
        (shapeCast S1x64 (addf (F := Ideal) (φ := .f32) (extractStridedSlice S64 ![0] bih slices_S256_S64_0) (extractStridedSlice S64 ![0] bhh slices_S256_S64_0)) shapeCasts_S64_S1x64)
        (shapeCast S1x64 (addf (F := Ideal) (φ := .f32) (extractStridedSlice S64 ![64] bih slices_S256_S64_64) (extractStridedSlice S64 ![64] bhh slices_S256_S64_64)) shapeCasts_S64_S1x64)
        (shapeCast S1x64 (addf (F := Ideal) (φ := .f32) (extractStridedSlice S64 ![128] bih slices_S256_S64_128) (extractStridedSlice S64 ![128] bhh slices_S256_S64_128)) shapeCasts_S64_S1x64)
        (shapeCast S1x64 (addf (F := Ideal) (φ := .f32) (extractStridedSlice S64 ![192] bih slices_S256_S64_192) (extractStridedSlice S64 ![192] bhh slices_S256_S64_192)) shapeCasts_S64_S1x64)
        Wout (shapeCast S1x16 bout shapeCasts_S16_S1x16)
      = paramsOf Win bin Wih Whh bih bhh Wout bout :=
  params_ext rfl (funext fun j => row64_ix bin j)
    (funext fun j => funext fun k => rows_ix Wih 0 0 rfl slices_S256x64_S64x64_0_0 j k)
    (funext fun j => funext fun k => rows_ix Wih 64 1 rfl slices_S256x64_S64x64_64_0 j k)
    (funext fun j => funext fun k => rows_ix Wih 128 2 rfl slices_S256x64_S64x64_128_0 j k)
    (funext fun j => funext fun k => rows_ix Wih 192 3 rfl slices_S256x64_S64x64_192_0 j k)
    (funext fun j => funext fun k => rows_ix Whh 0 0 rfl slices_S256x64_S64x64_0_0 j k)
    (funext fun j => funext fun k => rows_ix Whh 64 1 rfl slices_S256x64_S64x64_64_0 j k)
    (funext fun j => funext fun k => rows_ix Whh 128 2 rfl slices_S256x64_S64x64_128_0 j k)
    (funext fun j => funext fun k => rows_ix Whh 192 3 rfl slices_S256x64_S64x64_192_0 j k)
    (funext fun j => bias_ix bih bhh 0 0 rfl slices_S256_S64_0 j)
    (funext fun j => bias_ix bih bhh 64 1 rfl slices_S256_S64_64 j)
    (funext fun j => bias_ix bih bhh 128 2 rfl slices_S256_S64_128 j)
    (funext fun j => bias_ix bih bhh 192 3 rfl slices_S256_S64_192 j)
    rfl (funext fun a => row16_ix bout a)

/-! ## The windows that move over the grid -/

variable (m : (ℓ : Loc nD τ sig) → Buf (Elt Ideal) ℓ) (c : Dev nD)

/-- The three batched inputs and the three outputs move by one block of rows per point (decided over the 128 points). -/
theorem idx_rows : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_19.index t (0 : Fin 2) = t.val ∧ win0_19.index t (1 : Fin 2) = 0
    ∧ win0_20.index t (0 : Fin 3) = 0 ∧ win0_20.index t (1 : Fin 3) = t.val ∧ win0_20.index t (2 : Fin 3) = 0
    ∧ win0_21.index t (0 : Fin 3) = 0 ∧ win0_21.index t (1 : Fin 3) = t.val ∧ win0_21.index t (2 : Fin 3) = 0 :=
  (by decide +kernel : ∀ t : Fin grid0.N, _)

/-- Block row p of the observations at point t is batch row 2048·t + p. -/
theorem blk0 (t : Fin cfg0.N) (p : Fin 2048) (k : Fin 64) (hr : t.val * 2048 + p.val < 262144) :
    iblk m c 0 t (ix2 p k) = V m c main_arg0 (ix2 ⟨t.val * 2048 + p.val, hr⟩ k) := by
  obtain ⟨e0, e1, -⟩ := idx_rows t
  show V m c main_arg0 (((cfg0.win 0).blk t).view.emb (ix2 p k)) = _
  refine congrArg (V m c main_arg0) (funext fun a => Fin.ext ?_)
  match a with
  | ⟨0, _⟩ => show win0_0.index t (0 : Fin 2) * 2048 + 1 * p.val = t.val * 2048 + p.val; omega
  | ⟨1, _⟩ => show win0_0.index t (1 : Fin 2) * 64 + 1 * k.val = k.val; omega

/-- Block row p of the previous hidden state at point t is batch row 2048·t + p. -/
theorem blk1 (t : Fin cfg0.N) (p : Fin 2048) (k : Fin 64) (hr : t.val * 2048 + p.val < 262144) :
    iblk m c 1 t (ix3 (0 : Fin 1) p k) = V m c main_arg1 (ix3 (0 : Fin 1) ⟨t.val * 2048 + p.val, hr⟩ k) := by
  obtain ⟨-, -, e0, e1, e2, -⟩ := idx_rows t
  show V m c main_arg1 (((cfg0.win 1).blk t).view.emb (ix3 (0 : Fin 1) p k)) = _
  refine congrArg (V m c main_arg1) (funext fun a => Fin.ext ?_)
  match a with
  | ⟨0, _⟩ => show win0_1.index t (0 : Fin 3) * 1 + 1 * 0 = 0; omega
  | ⟨1, _⟩ => show win0_1.index t (1 : Fin 3) * 2048 + 1 * p.val = t.val * 2048 + p.val; omega
  | ⟨2, _⟩ => show win0_1.index t (2 : Fin 3) * 64 + 1 * k.val = k.val; omega

/-- Block row p of the previous cell state at point t is batch row 2048·t + p. -/
theorem blk2 (t : Fin cfg0.N) (p : Fin 2048) (k : Fin 64) (hr : t.val * 2048 + p.val < 262144) :
    iblk m c 2 t (ix3 (0 : Fin 1) p k) = V m c main_arg2 (ix3 (0 : Fin 1) ⟨t.val * 2048 + p.val, hr⟩ k) := by
  obtain ⟨-, -, -, -, -, e0, e1, e2, -⟩ := idx_rows t
  show V m c main_arg2 (((cfg0.win 2).blk t).view.emb (ix3 (0 : Fin 1) p k)) = _
  refine congrArg (V m c main_arg2) (funext fun a => Fin.ext ?_)
  match a with
  | ⟨0, _⟩ => show win0_2.index t (0 : Fin 3) * 1 + 1 * 0 = 0; omega
  | ⟨1, _⟩ => show win0_2.index t (1 : Fin 3) * 2048 + 1 * p.val = t.val * 2048 + p.val; omega
  | ⟨2, _⟩ => show win0_2.index t (2 : Fin 3) * 64 + 1 * k.val = k.val; omega

/-- At every point the body's weights are the weights read off the argument tables. -/
theorem params_eq (t : Fin cfg0.N) :
    blockParams (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t)
        (iblk m c 17 t) (iblk m c 18 t)
      = paramsOf (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10)) := by
  rw [blk3 m c t, blk4 m c t, blk5 m c t, blk6 m c t, blk7 m c t, blk8 m c t, blk9 m c t, blk10 m c t, blk11 m c t,
    blk12 m c t, blk13 m c t, blk14 m c t, blk15 m c t, blk16 m c t, blk17 m c t, blk18 m c t]
  rw [V_main_arg3, V_main_arg9, V_v24, V_v0, V_v1, V_v2, V_v3, V_v4, V_v5, V_v6, V_v7, V_v17, V_v19, V_v21, V_v23, V_v25]
  exact params_of_host _ _ _ _ _ _ _ _

end Cert.Lstm.Kern

end
-- ==== Proof.KFinal.lean ====
/-
  From blocks to the three result arrays.

  At grid point t the three output blocks are the cell, hidden state and action of the block's 2048 rows, and block
  row p is batch row 2048·t + p of the three batched inputs. The batch functions read row by row, so point t's output
  block is block t of the same function of the WHOLE batch. The 128 points' blocks cover every row (row r lies in the
  block of point r / 2048), hence after the run each result array holds that function of the argument arrays.
-/
import proofs.«103413_j58136677318825_1_alg».proof.Proof.Gen.KernelIdeal.Value
import proofs.«103413_j58136677318825_1_alg».proof.Proof.KHost

noncomputable section

open scoped BigOperators

namespace Cert.Lstm.Kern

open Idealize.ShloMosaic Idealize.ShloMosaic.ValueIdx Idealize.ShloMosaic.TcCoe Idealize.SL.Sem Cert.KernelIdeal
  Cert.KernelIdeal.Gen Cert.Lstm
open Idealize.ShloMosaic.Pipeline (Dat)

/-! ## A block of rows of the batch -/

section shift

variable (P : Params) (obs : (⟨2, ![262144, 64]⟩ : Shape).Idx → EReal) (h0 c0 : (⟨3, ![1, 262144, 64]⟩ : Shape).Idx → EReal)
  (xb0 : (⟨2, ![2048, 64]⟩ : Shape).Idx → EReal) (xb1 xb2 : (⟨3, ![1, 2048, 64]⟩ : Shape).Idx → EReal) (T : Nat)
  (e0 : ∀ (p : Fin 2048) (k : Fin 64) (hr : T * 2048 + p.val < 262144), xb0 (ix2 p k) = obs (ix2 ⟨T * 2048 + p.val, hr⟩ k))
  (e1 : ∀ (p : Fin 2048) (k : Fin 64) (hr : T * 2048 + p.val < 262144),
    xb1 (ix3 (0 : Fin 1) p k) = h0 (ix3 (0 : Fin 1) ⟨T * 2048 + p.val, hr⟩ k))
  (e2 : ∀ (p : Fin 2048) (k : Fin 64) (hr : T * 2048 + p.val < 262144),
    xb2 (ix3 (0 : Fin 1) p k) = c0 (ix3 (0 : Fin 1) ⟨T * 2048 + p.val, hr⟩ k))

include e0 e1 e2

/-- If the block's rows are rows 2048·T … of the batch, row p of the block and row r = 2048·T + p of the batch are the
    same three rows. -/
theorem rows_shift (p : Fin 2048) (r : Fin 262144) (h1 : r.val = T * 2048 + p.val) :
    row2 xb0 p = row2 obs r ∧ row3 xb1 p = row3 h0 r ∧ row3 xb2 p = row3 c0 r := by
  have hr : T * 2048 + p.val < 262144 := h1 ▸ r.isLt
  have hrr : (⟨T * 2048 + p.val, hr⟩ : Fin 262144) = r := Fin.ext h1.symm
  exact ⟨funext fun k => (e0 p k hr).trans (by rw [hrr]; rfl), funext fun k => (e1 p k hr).trans (by rw [hrr]; rfl),
    funext fun k => (e2 p k hr).trans (by rw [hrr]; rfl)⟩

theorem shiftC (u u' : Fin 1) (p : Fin 2048) (j : Fin 64) (r : Fin 262144) (h1 : r.val = T * 2048 + p.val) :
    outC P xb0 xb1 xb2 (ix3 u p j) = outC P obs h0 c0 (ix3 u' r j) := by
  obtain ⟨r0, r1, r2⟩ := rows_shift obs h0 c0 xb0 xb1 xb2 T e0 e1 e2 p r h1
  rw [outC_ix, outC_ix, r0, r1, r2]

theorem shiftH (u u' : Fin 1) (p : Fin 2048) (j : Fin 64) (r : Fin 262144) (h1 : r.val = T * 2048 + p.val) :
    outH P xb0 xb1 xb2 (ix3 u p j) = outH P obs h0 c0 (ix3 u' r j) := by
  obtain ⟨r0, r1, r2⟩ := rows_shift obs h0 c0 xb0 xb1 xb2 T e0 e1 e2 p r h1
  rw [outH_ix, outH_ix, r0, r1, r2]

theorem shiftA (p : Fin 2048) (a : Fin 16) (r : Fin 262144) (h1 : r.val = T * 2048 + p.val) :
    outA P xb0 xb1 xb2 (ix2 p a) = outA P obs h0 c0 (ix2 r a) := by
  obtain ⟨r0, r1, r2⟩ := rows_shift obs h0 c0 xb0 xb1 xb2 T e0 e1 e2 p r h1
  rw [outA_ix, outA_ix, r0, r1, r2]

end shift

/-! ## What each point writes back -/

variable (m : (ℓ : Loc nD τ sig) → Buf (Elt Ideal) ℓ) (ρ : Dev nD → PrngReg)

/-- The cell's weights read off the argument tables as launched. -/
abbrev argP (c : Dev nD) : Params :=
  paramsOf (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))

/-- The new cell state of the whole batch. -/
abbrev GC (c : Dev nD) : S1x262144x64.Idx → EReal :=
  outC (n := 262144) (argP m c) (m ((c : Thread nD τ).loc main_arg0)) (m ((c : Thread nD τ).loc main_arg1))
    (m ((c : Thread nD τ).loc main_arg2))
/-- The new hidden state of the whole batch. -/
abbrev GH (c : Dev nD) : S1x262144x64.Idx → EReal :=
  outH (n := 262144) (argP m c) (m ((c : Thread nD τ).loc main_arg0)) (m ((c : Thread nD τ).loc main_arg1))
    (m ((c : Thread nD τ).loc main_arg2))
/-- The actions of the whole batch. -/
abbrev GA (c : Dev nD) : S262144x16.Idx → EReal :=
  outA (n := 262144) (argP m c) (m ((c : Thread nD τ).loc main_arg0)) (m ((c : Thread nD τ).loc main_arg1))
    (m ((c : Thread nD τ).loc main_arg2))

theorem point_lt (t : Fin cfg0.N) : t.val < 128 := by
  have h : t.val < grid0.N := t.isLt
  rw [N_0] at h
  exact h

theorem e0_at (c : Dev nD) (t : Fin cfg0.N) (p : Fin 2048) (k : Fin 64) (hr : t.val * 2048 + p.val < 262144) :
    iblk m c 0 t (ix2 p k) = m ((c : Thread nD τ).loc main_arg0) (ix2 ⟨t.val * 2048 + p.val, hr⟩ k) :=
  (blk0 m c t p k hr).trans (congrFun (V_main_arg0 m c) _)
theorem e1_at (c : Dev nD) (t : Fin cfg0.N) (p : Fin 2048) (k : Fin 64) (hr : t.val * 2048 + p.val < 262144) :
    iblk m c 1 t (ix3 (0 : Fin 1) p k) = m ((c : Thread nD τ).loc main_arg1) (ix3 (0 : Fin 1) ⟨t.val * 2048 + p.val, hr⟩ k) :=
  (blk1 m c t p k hr).trans (congrFun (V_main_arg1 m c) _)
theorem e2_at (c : Dev nD) (t : Fin cfg0.N) (p : Fin 2048) (k : Fin 64) (hr : t.val * 2048 + p.val < 262144) :
    iblk m c 2 t (ix3 (0 : Fin 1) p k) = m ((c : Thread nD τ).loc main_arg2) (ix3 (0 : Fin 1) ⟨t.val * 2048 + p.val, hr⟩ k) :=
  (blk2 m c t p k hr).trans (congrFun (V_main_arg2 m c) _)

/-- Point t writes back block t of the batch's new cell state. -/
theorem flushedC (c : Dev nD) (t : Fin cfg0.N) :
    (dats m 0 c).flushed 21 t = ((cfg0.win 21).blk t).view.read (Elt Ideal) (GC m c) := by
  rw [Cert.KernelIdeal.Value.flushed21, blockC, params_eq m c t]
  have ht := point_lt t
  obtain ⟨-, -, -, -, -, -, -, -, -, -, -, -, -, f0, f1, f2⟩ := idx_rows t
  refine funext fun (y : S1x2048x64.Idx) => ?_
  obtain ⟨u, p, j, rfl⟩ : ∃ (u : Fin 1) (p : Fin 2048) (j : Fin 64), y = ix3 u p j := ⟨y 0, y 1, y 2, eq_ix3 y⟩
  have hr : t.val * 2048 + p.val < 262144 := by have := p.isLt; omega
  have hemb : ((cfg0.win 21).blk t).view.emb (ix3 u p j) = ix3 (0 : Fin 1) (⟨t.val * 2048 + p.val, hr⟩ : Fin 262144) j := by
    funext a; apply Fin.ext
    match a with
    | ⟨0, _⟩ => show win0_21.index t (0 : Fin 3) * 1 + 1 * u.val = 0; have := u.isLt; omega
    | ⟨1, _⟩ => show win0_21.index t (1 : Fin 3) * 2048 + 1 * p.val = t.val * 2048 + p.val; omega
    | ⟨2, _⟩ => show win0_21.index t (2 : Fin 3) * 64 + 1 * j.val = j.val; omega
  show outC (n := 2048) (argP m c) (iblk m c 0 t) (iblk m c 1 t) (iblk m c 2 t) (ix3 u p j)
    = GC m c (((cfg0.win 21).blk t).view.emb (ix3 u p j))
  rw [hemb]
  exact shiftC (argP m c) _ _ _ (iblk m c 0 t) (iblk m c 1 t) (iblk m c 2 t) t.val (e0_at m c t) (e1_at m c t) (e2_at m c t)
    u 0 p j ⟨t.val * 2048 + p.val, hr⟩ rfl

/-- Point t writes back block t of the batch's new hidden state. -/
theorem flushedH (c : Dev nD) (t : Fin cfg0.N) :
    (dats m 0 c).flushed 20 t = ((cfg0.win 20).blk t).view.read (Elt Ideal) (GH m c) := by
  rw [Cert.KernelIdeal.Value.flushed20, blockH, params_eq m c t]
  have ht := point_lt t
  obtain ⟨-, -, -, -, -, -, -, -, -, -, f0, f1, f2, -⟩ := idx_rows t
  refine funext fun (y : S1x2048x64.Idx) => ?_
  obtain ⟨u, p, j, rfl⟩ : ∃ (u : Fin 1) (p : Fin 2048) (j : Fin 64), y = ix3 u p j := ⟨y 0, y 1, y 2, eq_ix3 y⟩
  have hr : t.val * 2048 + p.val < 262144 := by have := p.isLt; omega
  have hemb : ((cfg0.win 20).blk t).view.emb (ix3 u p j) = ix3 (0 : Fin 1) (⟨t.val * 2048 + p.val, hr⟩ : Fin 262144) j := by
    funext a; apply Fin.ext
    match a with
    | ⟨0, _⟩ => show win0_20.index t (0 : Fin 3) * 1 + 1 * u.val = 0; have := u.isLt; omega
    | ⟨1, _⟩ => show win0_20.index t (1 : Fin 3) * 2048 + 1 * p.val = t.val * 2048 + p.val; omega
    | ⟨2, _⟩ => show win0_20.index t (2 : Fin 3) * 64 + 1 * j.val = j.val; omega
  show outH (n := 2048) (argP m c) (iblk m c 0 t) (iblk m c 1 t) (iblk m c 2 t) (ix3 u p j)
    = GH m c (((cfg0.win 20).blk t).view.emb (ix3 u p j))
  rw [hemb]
  exact shiftH (argP m c) _ _ _ (iblk m c 0 t) (iblk m c 1 t) (iblk m c 2 t) t.val (e0_at m c t) (e1_at m c t) (e2_at m c t)
    u 0 p j ⟨t.val * 2048 + p.val, hr⟩ rfl

/-- Point t writes back block t of the batch's actions. -/
theorem flushedA (c : Dev nD) (t : Fin cfg0.N) :
    (dats m 0 c).flushed 19 t = ((cfg0.win 19).blk t).view.read (Elt Ideal) (GA m c) := by
  rw [Cert.KernelIdeal.Value.flushed19, blockA, params_eq m c t]
  have ht := point_lt t
  obtain ⟨-, -, -, -, -, -, -, -, f0, f1, -⟩ := idx_rows t
  refine funext fun (y : S2048x16.Idx) => ?_
  obtain ⟨p, a, rfl⟩ : ∃ (p : Fin 2048) (a : Fin 16), y = ix2 p a := ⟨y 0, y 1, eq_ix2 y⟩
  have hr : t.val * 2048 + p.val < 262144 := by have := p.isLt; omega
  have hemb : ((cfg0.win 19).blk t).view.emb (ix2 p a) = ix2 (⟨t.val * 2048 + p.val, hr⟩ : Fin 262144) a := by
    funext b; apply Fin.ext
    match b with
    | ⟨0, _⟩ => show win0_19.index t (0 : Fin 2) * 2048 + 1 * p.val = t.val * 2048 + p.val; omega
    | ⟨1, _⟩ => show win0_19.index t (1 : Fin 2) * 16 + 1 * a.val = a.val; omega
  show outA (n := 2048) (argP m c) (iblk m c 0 t) (iblk m c 1 t) (iblk m c 2 t) (ix2 p a)
    = GA m c (((cfg0.win 19).blk t).view.emb (ix2 p a))
  rw [hemb]
  exact shiftA (argP m c) _ _ _ (iblk m c 0 t) (iblk m c 1 t) (iblk m c 2 t) t.val (e0_at m c t) (e1_at m c t) (e2_at m c t)
    p a ⟨t.val * 2048 + p.val, hr⟩ rfl

/-! ## The blocks cover the arrays -/

/-- The point whose block holds batch row r. -/
def pointOf (r : Nat) (h : r < 262144) : Fin cfg0.N := ⟨r / 2048, by show r / 2048 < grid0.N; rw [N_0]; omega⟩

theorem coverC (i : S1x262144x64.Idx) :
    ∃ t : Fin cfg0.N, (cfg0.win 21).flush t = true ∧ i ∈ ((cfg0.win 21).blk t).view.set := by
  have h0 : (i 0).val < 1 := (i 0).isLt
  have h1 : (i 1).val < 262144 := (i 1).isLt
  have h2 : (i 2).val < 64 := (i 2).isLt
  refine ⟨pointOf (i 1).val h1, flush0_21 _, ?_⟩
  obtain ⟨-, -, -, -, -, -, -, -, -, -, -, -, -, f0, f1, f2⟩ := idx_rows (pointOf (i 1).val h1)
  have hv : (pointOf (i 1).val h1).val = (i 1).val / 2048 := rfl
  show i ∈ ((View.whole main_v26_2).slice (win0_21.rect (pointOf (i 1).val h1))).set
  rw [View.set_slice_whole, Rect.mem_set_unit]
  intro a
  match a with
  | ⟨0, _⟩ => show win0_21.index (pointOf (i 1).val h1) (0 : Fin 3) * 1 ≤ (i 0).val ∧ (i 0).val < win0_21.index (pointOf (i 1).val h1) (0 : Fin 3) * 1 + 1; omega
  | ⟨1, _⟩ => show win0_21.index (pointOf (i 1).val h1) (1 : Fin 3) * 2048 ≤ (i 1).val ∧ (i 1).val < win0_21.index (pointOf (i 1).val h1) (1 : Fin 3) * 2048 + 2048; omega
  | ⟨2, _⟩ => show win0_21.index (pointOf (i 1).val h1) (2 : Fin 3) * 64 ≤ (i 2).val ∧ (i 2).val < win0_21.index (pointOf (i 1).val h1) (2 : Fin 3) * 64 + 64; omega

theorem coverH (i : S1x262144x64.Idx) :
    ∃ t : Fin cfg0.N, (cfg0.win 20).flush t = true ∧ i ∈ ((cfg0.win 20).blk t).view.set := by
  have h0 : (i 0).val < 1 := (i 0).isLt
  have h1 : (i 1).val < 262144 := (i 1).isLt
  have h2 : (i 2).val < 64 := (i 2).isLt
  refine ⟨pointOf (i 1).val h1, flush0_20 _, ?_⟩
  obtain ⟨-, -, -, -, -, -, -, -, -, -, f0, f1, f2, -⟩ := idx_rows (pointOf (i 1).val h1)
  have hv : (pointOf (i 1).val h1).val = (i 1).val / 2048 := rfl
  show i ∈ ((View.whole main_v26_1).slice (win0_20.rect (pointOf (i 1).val h1))).set
  rw [View.set_slice_whole, Rect.mem_set_unit]
  intro a
  match a with
  | ⟨0, _⟩ => show win0_20.index (pointOf (i 1).val h1) (0 : Fin 3) * 1 ≤ (i 0).val ∧ (i 0).val < win0_20.index (pointOf (i 1).val h1) (0 : Fin 3) * 1 + 1; omega
  | ⟨1, _⟩ => show win0_20.index (pointOf (i 1).val h1) (1 : Fin 3) * 2048 ≤ (i 1).val ∧ (i 1).val < win0_20.index (pointOf (i 1).val h1) (1 : Fin 3) * 2048 + 2048; omega
  | ⟨2, _⟩ => show win0_20.index (pointOf (i 1).val h1) (2 : Fin 3) * 64 ≤ (i 2).val ∧ (i 2).val < win0_20.index (pointOf (i 1).val h1) (2 : Fin 3) * 64 + 64; omega

theorem coverA (i : S262144x16.Idx) :
    ∃ t : Fin cfg0.N, (cfg0.win 19).flush t = true ∧ i ∈ ((cfg0.win 19).blk t).view.set := by
  have h0 : (i 0).val < 262144 := (i 0).isLt
  have h1 : (i 1).val < 16 := (i 1).isLt
  refine ⟨pointOf (i 0).val h0, flush0_19 _, ?_⟩
  obtain ⟨-, -, -, -, -, -, -, -, f0, f1, -⟩ := idx_rows (pointOf (i 0).val h0)
  have hv : (pointOf (i 0).val h0).val = (i 0).val / 2048 := rfl
  show i ∈ ((View.whole main_v26_0).slice (win0_19.rect (pointOf (i 0).val h0))).set
  rw [View.set_slice_whole, Rect.mem_set_unit]
  intro a
  match a with
  | ⟨0, _⟩ => show win0_19.index (pointOf (i 0).val h0) (0 : Fin 2) * 2048 ≤ (i 0).val ∧ (i 0).val < win0_19.index (pointOf (i 0).val h0) (0 : Fin 2) * 2048 + 2048; omega
  | ⟨1, _⟩ => show win0_19.index (pointOf (i 0).val h0) (1 : Fin 2) * 16 ≤ (i 1).val ∧ (i 1).val < win0_19.index (pointOf (i 0).val h0) (1 : Fin 2) * 16 + 16; omega

/-! ## The arrays after the run -/

theorem finalC (c : Dev nD) : (dats m 0 c).arrAt 21 cfg0.N = GC m c :=
  (dats m 0 c).arrAt_eq_of_cover 21 (GC m c) (fun t _ => flushedC m c t) coverC
theorem finalH (c : Dev nD) : (dats m 0 c).arrAt 20 cfg0.N = GH m c :=
  (dats m 0 c).arrAt_eq_of_cover 20 (GH m c) (fun t _ => flushedH m c t) coverH
theorem finalA (c : Dev nD) : (dats m 0 c).arrAt 19 cfg0.N = GA m c :=
  (dats m 0 c).arrAt_eq_of_cover 19 (GA m c) (fun t _ => flushedA m c t) coverA

/-- The kernel's run: every weakly fair execution terminates with the three result arrays at the action, the new hidden
    state and the new cell state of the whole batch, and the arguments unchanged. -/
theorem run : θ_run defs (onTc (τ := τ) (main (F := Ideal))) ⟨m, fun _ => 0, ρ⟩ fun r => ∀ c : Dev nD,
      r.2.mem ((c : Thread nD τ).loc main_v26_0) = GA m c
      ∧ r.2.mem ((c : Thread nD τ).loc main_v26_1) = GH m c
      ∧ r.2.mem ((c : Thread nD τ).loc main_v26_2) = GC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (finalA m c), (h c).2.1.trans (finalH m c),
      (h c).2.2.1.trans (finalC m c), (h c).2.2.2⟩)
    (Cert.KernelIdeal.Value.run_blocks (F := Ideal) m ρ)

end Cert.Lstm.Kern

end
-- ==== Proof.LibDenseRef.lean ====
/-
  One dense layer in the host's spelling, read at an entry.

  On the host a dense layer is a matrix product, a bias vector placed along the rows (first as a one-row table, then
  repeated down the rows) and, for a rectified layer, the maximum with a table of zeros made from a scalar zero.
  Entry (a, j) is  Σ_k x(a, k) · w(k, j) + b(j)  (and its maximum with 0): the same value as the vector unit's
  spelling of the layer (LibDense), whose bias is a one-row table. No finiteness is assumed.
-/
import Idealize.ShloMosaic.Lib.ValueIdx
import Idealize.ShloMosaic.Lib.ValueLayout
import Idealize.ShloMosaic.Lib.Pipeline.Value
import Idealize.ShloMosaic.PureOps.Ideal.Laws
import proofs.«103413_j58136677318825_1_alg».proof.Proof.LibDot

noncomputable section

open scoped BigOperators

namespace Cert.LibDenseRef

open Idealize.ShloMosaic Idealize.ShloMosaic.ValueIdx

/-- A scalar repeated over a whole table: every entry is the scalar. -/
theorem scalar_apply {α : Type} {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

/-- The linear part of the layer at entry (a, j). -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1]) (a : Fin m) (j : Fin p) :
    addf (Host.dotGeneral d none x w) (broadcastInDim ⟨2, ![m, p]⟩ ![0, 1] hbc (broadcastInDim ⟨2, ![1, p]⟩ ![1] hd b)) (ix2 a j)
      = (∑ k : Fin n, x (ix2 a k) * w (ix2 k j)) + b (ix1 j) := by
  rw [addf_apply, Cert.Sage.LibDot.row_dims_apply b hd hbc a j]
  congr 1
  simp only [Host.dotGeneral]
  rw [Ideal.dotGeneral_apply]
  exact Cert.Sage.LibDot.sum_plain d hr hs hl0 hl1 hr0 hr1 (fun i => x i) (fun i => w i) a j

/-- The rectified layer at entry (a, j). -/
theorem relu_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1])
    (hz : (⟨0, ![]⟩ : Shape).BroadcastsInDim ⟨2, ![m, p]⟩ ![]) (a : Fin m) (j : Fin p) :
    maximumf (addf (Host.dotGeneral d none x w) (broadcastInDim ⟨2, ![m, p]⟩ ![0, 1] hbc (broadcastInDim ⟨2, ![1, p]⟩ ![1] hd b)))
        (broadcastInDim ⟨2, ![m, p]⟩ ![] hz (constant (F := Ideal) ⟨0, ![]⟩ .f32 0x00000000#32)) (ix2 a j)
      = max ((∑ k : Fin n, x (ix2 a k) * w (ix2 k j)) + b (ix1 j)) 0 := by
  refine (maximumf_apply _ _ (ix2 a j)).trans ?_
  refine congrArg₂ max (lin_apply d hr hs hl0 hl1 hr0 hr1 x w b hd hbc a j) ?_
  rw [scalar_apply]
  exact Ideal.ofBits_zero_f32

end Cert.LibDenseRef

end
-- ==== Proof.RefIsSpec.lean ====
import proofs.«103413_j58136677318825_1_alg».proof.Proof.Spec
import proofs.«103413_j58136677318825_1_alg».proof.Proof.Gen.ReferenceIdeal.Read
import proofs.«103413_j58136677318825_1_alg».proof.Proof.LibDot
import proofs.«103413_j58136677318825_1_alg».proof.Proof.LibDenseRef

noncomputable section

open scoped BigOperators

namespace Cert.Lstm.Ref

open Idealize.ShloMosaic Idealize.ShloMosaic.ValueIdx Cert.ReferenceIdeal Cert.ReferenceIdeal.Read Cert.Lstm

variable (x0 : (⟨S262144x64, .f32⟩ : BufTy).Contents (Elt Ideal)) (x1 x2 : (⟨S1x262144x64, .f32⟩ : BufTy).Contents (Elt Ideal))
  (x3 : (⟨S64x64, .f32⟩ : BufTy).Contents (Elt Ideal)) (x4 : (⟨S64, .f32⟩ : BufTy).Contents (Elt Ideal))
  (x5 x6 : (⟨S256x64, .f32⟩ : BufTy).Contents (Elt Ideal)) (x7 x8 : (⟨S256, .f32⟩ : BufTy).Contents (Elt Ideal))
  (x9 : (⟨S16x64, .f32⟩ : BufTy).Contents (Elt Ideal)) (x10 : (⟨S16, .f32⟩ : BufTy).Contents (Elt Ideal))

/-
  The reference program, read one entry at a time, is the specification's cell.

  Fix a batch row r. The first dense layer gives x_j = Σ_k o_k · Win(j,k) + bin(j), the specification's `proj` of
  row r of the observations. The reference then forms ONE table of 256 columns,
      t(r, c) = (((Σ_k x_k · Wih(c,k)) + bih(c)) + Σ_k h_k · Whh(c,k)) + bhh(c) ,
  where h is row r of the previous hidden state, and cuts it into four blocks of 64 columns. Column j of block g is
  column 64·g + j of the table, so it uses row 64·g + j of the two weight tables and entry 64·g + j of the two bias
  vectors: that is gate g's pre-activation with its bias in two parts, and commutativity and associativity of +
  on the extended reals turn it into the form with the summed bias. Nothing is assumed finite.

  Three of the blocks pass through 1 / (1 + e^(-z)) written with the word for one, which is the logistic function;
  the third block passes through the hyperbolic tangent. Then c' = σ(z^f) · c + σ(z^i) · tanh(z^g) and
  h' = σ(z^o) · tanh(c'), entry by entry, and the action is the output layer of h', squashed, with the four
  constant words kept exactly as they are printed. The previous states carry a leading axis of extent one; removing it
  and putting it back are the maps (0, r, j) ↔ (r, j), checked by arithmetic on the row-major position.
-/

/-- The projected row: entry (r, j) of the first dense layer. -/
theorem v4_at (r : Fin 262144) (j : Fin 64) :
    val_main_v4 (F := Ideal) x0 x3 x4 (ix2 r j)
      = proj (fun j k => x3 (ix2 j k)) (fun j => x4 (ix1 j)) (row2 x0 r) j := by
  rw [val_main_v4_apply, val_main_v1_apply, val_main_v3_apply, val_main_v2_apply]
  have e2 : idx_main_v2 (idx_main_v3 (ix2 r j)) = ix1 j :=
    funext fun a => Fin.ext (by match a with | ⟨0, _⟩ => rfl)
  rw [e2]
  show (∑ k : Fin 64, x0 (lidx_main_v1 (ix2 r j) k) * val_main_v0 (F := Ideal) x3 (ridx_main_v1 (ix2 r j) k)) + x4 (ix1 j) = _
  unfold proj row2
  congr 1
  refine Finset.sum_congr rfl fun k _ => ?_
  rw [val_main_v0_apply]
  have el : lidx_main_v1 (ix2 r j) k = ix2 r k :=
    funext fun a => Fin.ext (by match a with | ⟨0, _⟩ => rfl | ⟨1, _⟩ => rfl)
  have er : idx_main_v0 (ridx_main_v1 (ix2 r j) k) = ix2 j k :=
    funext fun a => Fin.ext (by match a with | ⟨0, _⟩ => rfl | ⟨1, _⟩ => rfl)
  rw [el, er]

/-- Row r of the previous hidden state, read through the host's removal of the leading unit axis. -/
theorem v5_at (r : Fin 262144) (k : Fin 64) :
    val_main_v5 (F := Ideal) x1 (ix2 r k) = row3 x1 r k := by
  rw [val_main_v5_apply]
  have e : idx_main_v5 (ix2 r k) = ix3 (0 : Fin 1) r k :=
    funext fun a => Fin.ext (by
      have hr := r.isLt
      have hk := k.isLt
      match a with
      | ⟨0, _⟩ => rfl
      | ⟨1, _⟩ => show (r.val * 64 + k.val) / 64 % 262144 = r.val; omega
      | ⟨2, _⟩ => show (r.val * 64 + k.val) % 64 = k.val; omega)
  rw [e]
  rfl

/-- Row r of the previous cell state, read the same way. -/
theorem v6_at (r : Fin 262144) (k : Fin 64) :
    val_main_v6 (F := Ideal) x2 (ix2 r k) = row3 x2 r k := by
  rw [val_main_v6_apply]
  have e : idx_main_v6 (ix2 r k) = ix3 (0 : Fin 1) r k :=
    funext fun a => Fin.ext (by
      have hr := r.isLt
      have hk := k.isLt
      match a with
      | ⟨0, _⟩ => rfl
      | ⟨1, _⟩ => show (r.val * 64 + k.val) / 64 % 262144 = r.val; omega
      | ⟨2, _⟩ => show (r.val * 64 + k.val) % 64 = k.val; omega)
  rw [e]
  rfl

/-- Entry (r, c) of the table of all four gates' pre-activations: column c uses row c of the two 256-row weight
    tables and entry c of the two bias vectors, each bias added right after its product. -/
theorem v17_at (r : Fin 262144) (c : Fin 256) :
    val_main_v17 (F := Ideal) x0 x1 x3 x4 x5 x6 x7 x8 (ix2 r c)
      = (((∑ k : Fin 64, proj (fun j k => x3 (ix2 j k)) (fun j => x4 (ix1 j)) (row2 x0 r) k * x5 (ix2 c k))
            + x7 (ix1 c))
          + (∑ k : Fin 64, row3 x1 r k * x6 (ix2 c k)))
        + x8 (ix1 c) := by
  rw [val_main_v17_apply, val_main_v14_apply, val_main_v11_apply, val_main_v8_apply, val_main_v13_apply,
    val_main_v10_apply, val_main_v9_apply, val_main_v16_apply, val_main_v15_apply]
  have e9 : idx_main_v9 (idx_main_v10 (ix2 r c)) = ix1 c :=
    funext fun a => Fin.ext (by match a with | ⟨0, _⟩ => rfl)
  have e15 : idx_main_v15 (idx_main_v16 (ix2 r c)) = ix1 c :=
    funext fun a => Fin.ext (by match a with | ⟨0, _⟩ => rfl)
  rw [e9, e15]
  have s8 : (∑ k : Fin 64, val_main_v4 (F := Ideal) x0 x3 x4 (lidx_main_v8 (ix2 r c) k)
        * val_main_v7 (F := Ideal) x5 (ridx_main_v8 (ix2 r c) k))
      = ∑ k : Fin 64, proj (fun j k => x3 (ix2 j k)) (fun j => x4 (ix1 j)) (row2 x0 r) k * x5 (ix2 c k) := by
    refine Finset.sum_congr rfl fun k _ => ?_
    have el : lidx_main_v8 (ix2 r c) k = ix2 r k :=
      funext fun a => Fin.ext (by match a with | ⟨0, _⟩ => rfl | ⟨1, _⟩ => rfl)
    have er : idx_main_v7 (ridx_main_v8 (ix2 r c) k) = ix2 c k :=
      funext fun a => Fin.ext (by match a with | ⟨0, _⟩ => rfl | ⟨1, _⟩ => rfl)
    rw [val_main_v7_apply, el, er, v4_at]
  have s13 : (∑ k : Fin 64, val_main_v5 (F := Ideal) x1 (lidx_main_v13 (ix2 r c) k)
        * val_main_v12 (F := Ideal) x6 (ridx_main_v13 (ix2 r c) k))
      = ∑ k : Fin 64, row3 x1 r k * x6 (ix2 c k) := by
    refine Finset.sum_congr rfl fun k _ => ?_
    have el : lidx_main_v13 (ix2 r c) k = ix2 r k :=
      funext fun a => Fin.ext (by match a with | ⟨0, _⟩ => rfl | ⟨1, _⟩ => rfl)
    have er : idx_main_v12 (ridx_main_v13 (ix2 r c) k) = ix2 c k :=
      funext fun a => Fin.ext (by match a with | ⟨0, _⟩ => rfl | ⟨1, _⟩ => rfl)
    rw [val_main_v12_apply, el, er, v5_at]
  rw [s8, s13]
  rfl

/-- Gate g's pre-activation at (r, j) is entry (r, 64·g + j) of the gate table; the two bias parts are joined into
    their sum by commutativity and associativity of + alone. -/
theorem v17_gate (g : Fin 4) (r : Fin 262144) (j : Fin 64) :
    val_main_v17 (F := Ideal) x0 x1 x3 x4 x5 x6 x7 x8 (ix2 r (gateRow g j))
      = pre (fun j k => x5 (ix2 (gateRow g j) k)) (fun j k => x6 (ix2 (gateRow g j) k))
          (fun j => x7 (ix1 (gateRow g j)) + x8 (ix1 (gateRow g j)))
          (proj (fun j k => x3 (ix2 j k)) (fun j => x4 (ix1 j)) (row2 x0 r)) (row3 x1 r) j := by
  rw [v17_at]
  exact congrFun (pre2_eq (fun j k => x5 (ix2 (gateRow g j) k)) (fun j k => x6 (ix2 (gateRow g j) k))
    (fun j => x7 (ix1 (gateRow g j))) (fun j => x8 (ix1 (gateRow g j)))
    (proj (fun j k => x3 (ix2 j k)) (fun j => x4 (ix1 j)) (row2 x0 r)) (row3 x1 r)) j

/-- Column block 0 of the gate table (columns 0 to 63) at (r, j): gate 0's pre-activation. -/
theorem v18_at (r : Fin 262144) (j : Fin 64) :
    val_main_v18 (F := Ideal) x0 x1 x3 x4 x5 x6 x7 x8 (ix2 r j)
      = pre (fun j k => x5 (ix2 (gateRow 0 j) k)) (fun j k => x6 (ix2 (gateRow 0 j) k))
          (fun j => x7 (ix1 (gateRow 0 j)) + x8 (ix1 (gateRow 0 j)))
          (proj (fun j k => x3 (ix2 j k)) (fun j => x4 (ix1 j)) (row2 x0 r)) (row3 x1 r) j := by
  rw [val_main_v18_apply]
  have e : idx_main_v18 (ix2 r j) = ix2 r (gateRow 0 j) :=
    funext fun a => Fin.ext (by
      match a with
      | ⟨0, _⟩ => rfl
      | ⟨1, _⟩ => show j.val = 64 * 0 + j.val; omega)
  rw [e, v17_gate]

/-- Column block 1 of the gate table (columns 64 to 127) at (r, j): gate 1's pre-activation. -/
theorem v19_at (r : Fin 262144) (j : Fin 64) :
    val_main_v19 (F := Ideal) x0 x1 x3 x4 x5 x6 x7 x8 (ix2 r j)
      = pre (fun j k => x5 (ix2 (gateRow 1 j) k)) (fun j k => x6 (ix2 (gateRow 1 j) k))
          (fun j => x7 (ix1 (gateRow 1 j)) + x8 (ix1 (gateRow 1 j)))
          (proj (fun j k => x3 (ix2 j k)) (fun j => x4 (ix1 j)) (row2 x0 r)) (row3 x1 r) j := by
  rw [val_main_v19_apply]
  have e : idx_main_v19 (ix2 r j) = ix2 r (gateRow 1 j) :=
    funext fun a => Fin.ext (by
      match a with
      | ⟨0, _⟩ => rfl
      | ⟨1, _⟩ => show 64 + j.val = 64 * 1 + j.val; omega)
  rw [e, v17_gate]

/-- Column block 2 of the gate table (columns 128 to 191) at (r, j): gate 2's pre-activation. -/
theorem v20_at (r : Fin 262144) (j : Fin 64) :
    val_main_v20 (F := Ideal) x0 x1 x3 x4 x5 x6 x7 x8 (ix2 r j)
      = pre (fun j k => x5 (ix2 (gateRow 2 j) k)) (fun j k => x6 (ix2 (gateRow 2 j) k))
          (fun j => x7 (ix1 (gateRow 2 j)) + x8 (ix1 (gateRow 2 j)))
          (proj (fun j k => x3 (ix2 j k)) (fun j => x4 (ix1 j)) (row2 x0 r)) (row3 x1 r) j := by
  rw [val_main_v20_apply]
  have e : idx_main_v20 (ix2 r j) = ix2 r (gateRow 2 j) :=
    funext fun a => Fin.ext (by
      match a with
      | ⟨0, _⟩ => rfl
      | ⟨1, _⟩ => show 128 + j.val = 64 * 2 + j.val; omega)
  rw [e, v17_gate]

/-- Column block 3 of the gate table (columns 192 to 255) at (r, j): gate 3's pre-activation. -/
theorem v21_at (r : Fin 262144) (j : Fin 64) :
    val_main_v21 (F := Ideal) x0 x1 x3 x4 x5 x6 x7 x8 (ix2 r j)
      = pre (fun j k => x5 (ix2 (gateRow 3 j) k)) (fun j k => x6 (ix2 (gateRow 3 j) k))
          (fun j => x7 (ix1 (gateRow 3 j)) + x8 (ix1 (gateRow 3 j)))
          (proj (fun j k => x3 (ix2 j k)) (fun j => x4 (ix1 j)) (row2 x0 r)) (row3 x1 r) j := by
  rw [val_main_v21_apply]
  have e : idx_main_v21 (ix2 r j) = ix2 r (gateRow 3 j) :=
    funext fun a => Fin.ext (by
      match a with
      | ⟨0, _⟩ => rfl
      | ⟨1, _⟩ => show 192 + j.val = 64 * 3 + j.val; omega)
  rw [e, v17_gate]

/-- The input gate at (r, j): the expanded quotient 1 / (1 + e^(-z)) is the logistic function of the pre-activation. -/
theorem v27_at (r : Fin 262144) (j : Fin 64) :
    val_main_v27 (F := Ideal) x0 x1 x3 x4 x5 x6 x7 x8 (ix2 r j)
      = Ideal.logistic (pre (fun j k => x5 (ix2 (gateRow 0 j) k)) (fun j k => x6 (ix2 (gateRow 0 j) k))
          (fun j => x7 (ix1 (gateRow 0 j)) + x8 (ix1 (gateRow 0 j)))
          (proj (fun j k => x3 (ix2 j k)) (fun j => x4 (ix1 j)) (row2 x0 r)) (row3 x1 r) j) := by
  rw [val_main_v27_apply, val_main_v26_apply, val_main_v25_apply, val_main_v24_apply,
    val_main_v23_apply, val_main_v22_apply, v18_at]
  exact logistic_spelt _

/-- The forget gate at (r, j): the expanded quotient 1 / (1 + e^(-z)) is the logistic function of the pre-activation. -/
theorem v33_at (r : Fin 262144) (j : Fin 64) :
    val_main_v33 (F := Ideal) x0 x1 x3 x4 x5 x6 x7 x8 (ix2 r j)
      = Ideal.logistic (pre (fun j k => x5 (ix2 (gateRow 1 j) k)) (fun j k => x6 (ix2 (gateRow 1 j) k))
          (fun j => x7 (ix1 (gateRow 1 j)) + x8 (ix1 (gateRow 1 j)))
          (proj (fun j k => x3 (ix2 j k)) (fun j => x4 (ix1 j)) (row2 x0 r)) (row3 x1 r) j) := by
  rw [val_main_v33_apply, val_main_v32_apply, val_main_v31_apply, val_main_v30_apply,
    val_main_v29_apply, val_main_v28_apply, v19_at]
  exact logistic_spelt _

/-- The output gate at (r, j): the expanded quotient 1 / (1 + e^(-z)) is the logistic function of the pre-activation. -/
theorem v40_at (r : Fin 262144) (j : Fin 64) :
    val_main_v40 (F := Ideal) x0 x1 x3 x4 x5 x6 x7 x8 (ix2 r j)
      = Ideal.logistic (pre (fun j k => x5 (ix2 (gateRow 3 j) k)) (fun j k => x6 (ix2 (gateRow 3 j) k))
          (fun j => x7 (ix1 (gateRow 3 j)) + x8 (ix1 (gateRow 3 j)))
          (proj (fun j k => x3 (ix2 j k)) (fun j => x4 (ix1 j)) (row2 x0 r)) (row3 x1 r) j) := by
  rw [val_main_v40_apply, val_main_v39_apply, val_main_v38_apply, val_main_v37_apply,
    val_main_v36_apply, val_main_v35_apply, v21_at]
  exact logistic_spelt _

/-- The candidate at (r, j): the hyperbolic tangent of gate 2's pre-activation. -/
theorem v34_at (r : Fin 262144) (j : Fin 64) :
    val_main_v34 (F := Ideal) x0 x1 x3 x4 x5 x6 x7 x8 (ix2 r j)
      = Ideal.tanh (pre (fun j k => x5 (ix2 (gateRow 2 j) k)) (fun j k => x6 (ix2 (gateRow 2 j) k))
          (fun j => x7 (ix1 (gateRow 2 j)) + x8 (ix1 (gateRow 2 j)))
          (proj (fun j k => x3 (ix2 j k)) (fun j => x4 (ix1 j)) (row2 x0 r)) (row3 x1 r) j) := by
  rw [val_main_v34_apply, v20_at]
  rfl

/-- The new cell state at (r, j): forget gate times old cell plus input gate times candidate. -/
theorem v43_at (r : Fin 262144) (j : Fin 64) :
    val_main_v43 (F := Ideal) x0 x1 x2 x3 x4 x5 x6 x7 x8 (ix2 r j)
      = cellC (paramsOf x3 x4 x5 x6 x7 x8 x9 x10) (row2 x0 r) (row3 x1 r) (row3 x2 r) j := by
  rw [val_main_v43_apply, val_main_v41_apply, val_main_v42_apply, v33_at, v27_at, v34_at, v6_at]
  rfl

/-- The new hidden state at (r, j): output gate times the hyperbolic tangent of the new cell state. -/
theorem v45_at (r : Fin 262144) (j : Fin 64) :
    val_main_v45 (F := Ideal) x0 x1 x2 x3 x4 x5 x6 x7 x8 (ix2 r j)
      = cellH (paramsOf x3 x4 x5 x6 x7 x8 x9 x10) (row2 x0 r) (row3 x1 r) (row3 x2 r) j := by
  rw [val_main_v45_apply, val_main_v44_apply, v40_at, v43_at x0 x1 x2 x3 x4 x5 x6 x7 x8 x9 x10]
  rfl

/-- The output layer at (r, a): the new hidden row against row a of the output weights, plus the output bias. -/
theorem v50_at (r : Fin 262144) (a : Fin 16) :
    val_main_v50 (F := Ideal) x0 x1 x2 x3 x4 x5 x6 x7 x8 x9 x10 (ix2 r a)
      = (∑ k : Fin 64, cellH (paramsOf x3 x4 x5 x6 x7 x8 x9 x10) (row2 x0 r) (row3 x1 r) (row3 x2 r) k * x9 (ix2 a k)) + x10 (ix1 a) := by
  rw [val_main_v50_apply, val_main_v47_apply, val_main_v49_apply, val_main_v48_apply]
  have e48 : idx_main_v48 (idx_main_v49 (ix2 r a)) = ix1 a :=
    funext fun d => Fin.ext (by match d with | ⟨0, _⟩ => rfl)
  rw [e48]
  have s47 : (∑ k : Fin 64, val_main_v45 (F := Ideal) x0 x1 x2 x3 x4 x5 x6 x7 x8 (lidx_main_v47 (ix2 r a) k)
        * val_main_v46 (F := Ideal) x9 (ridx_main_v47 (ix2 r a) k))
      = ∑ k : Fin 64, cellH (paramsOf x3 x4 x5 x6 x7 x8 x9 x10) (row2 x0 r) (row3 x1 r) (row3 x2 r) k * x9 (ix2 a k) := by
    refine Finset.sum_congr rfl fun k _ => ?_
    have el : lidx_main_v47 (ix2 r a) k = ix2 r k :=
      funext fun d => Fin.ext (by match d with | ⟨0, _⟩ => rfl | ⟨1, _⟩ => rfl)
    have er : idx_main_v46 (ridx_main_v47 (ix2 r a) k) = ix2 a k :=
      funext fun d => Fin.ext (by match d with | ⟨0, _⟩ => rfl | ⟨1, _⟩ => rfl)
    rw [val_main_v46_apply, el, er, v45_at x0 x1 x2 x3 x4 x5 x6 x7 x8 x9 x10]
  rw [s47]
  rfl

/-- The action at (r, a): the squashed output layer, shifted and rescaled by the four constant words as printed. -/
theorem v59_at (r : Fin 262144) (a : Fin 16) :
    val_main_v59 (F := Ideal) x0 x1 x2 x3 x4 x5 x6 x7 x8 x9 x10 (ix2 r a)
      = cellA (paramsOf x3 x4 x5 x6 x7 x8 x9 x10) (row2 x0 r) (row3 x1 r) (row3 x2 r) a := by
  rw [val_main_v59_apply, val_main_v57_apply, val_main_v55_apply, val_main_v53_apply, val_main_v51_apply, v50_at]
  rfl

theorem ref_c : val_main_v61 (F := Ideal) x0 x1 x2 x3 x4 x5 x6 x7 x8
    = outC (n := 262144) (paramsOf x3 x4 x5 x6 x7 x8 x9 x10) x0 x1 x2 := by
  funext i
  obtain ⟨u, r, j, rfl⟩ : ∃ (u : Fin 1) (r : Fin 262144) (j : Fin 64), i = ix3 u r j := ⟨i 0, i 1, i 2, eq_ix3 i⟩
  rw [outC_ix, val_main_v61_apply]
  have e : idx_main_v61 (ix3 u r j) = ix2 r j :=
    funext fun a => Fin.ext (by match a with | ⟨0, _⟩ => rfl | ⟨1, _⟩ => rfl)
  rw [e, v43_at x0 x1 x2 x3 x4 x5 x6 x7 x8 x9 x10]

theorem ref_h : val_main_v60 (F := Ideal) x0 x1 x2 x3 x4 x5 x6 x7 x8
    = outH (n := 262144) (paramsOf x3 x4 x5 x6 x7 x8 x9 x10) x0 x1 x2 := by
  funext i
  obtain ⟨u, r, j, rfl⟩ : ∃ (u : Fin 1) (r : Fin 262144) (j : Fin 64), i = ix3 u r j := ⟨i 0, i 1, i 2, eq_ix3 i⟩
  rw [outH_ix, val_main_v60_apply]
  have e : idx_main_v60 (ix3 u r j) = ix2 r j :=
    funext fun a => Fin.ext (by match a with | ⟨0, _⟩ => rfl | ⟨1, _⟩ => rfl)
  rw [e, v45_at x0 x1 x2 x3 x4 x5 x6 x7 x8 x9 x10]

theorem ref_a : val_main_v59 (F := Ideal) x0 x1 x2 x3 x4 x5 x6 x7 x8 x9 x10
    = outA (n := 262144) (paramsOf x3 x4 x5 x6 x7 x8 x9 x10) x0 x1 x2 := by
  funext i
  obtain ⟨r, a, rfl⟩ : ∃ (r : Fin 262144) (a : Fin 16), i = ix2 r a := ⟨i 0, i 1, eq_ix2 i⟩
  rw [outA_ix, v59_at]

end Cert.Lstm.Ref

end
-- ==== Proof.lean ====
/-
  A batched single-step recurrent policy: a Pallas kernel against its jnp reference, over the extended reals.

  Both programs map observations o, previous hidden and cell states h, c (262144 rows of 64 entries each) and the
  weights to an action, a new hidden state and a new cell state, row by row:
      x = o · Winᵀ + bin ,   z^g = x · W_ih,gᵀ + h · W_hh,gᵀ + (b_ih,g + b_hh,g)   for the four gates g = i, f, g, o ,
      c' = σ(z^f) · c + σ(z^i) · tanh(z^g) ,   h' = σ(z^o) · tanh(c') ,
      action = -1 + ((tanh(h' · Woutᵀ + bout) + 1) · 1/2) · 2 .
  The kernel works on 128 blocks of 2048 rows with the gates' weights cut out and their two biases added beforehand;
  the reference forms all four gates as one 256-column table, adds the two biases one after the other, cuts the table
  into its gates, and spells σ(z) as 1 / (1 + e^(-z)). At the ideal values a change of float format is the identity,
  a product accumulated from zero is the plain sum over the 64 shared positions on both sides, 1 / (1 + e^(-z)) IS the
  logistic function, and the two bias groupings differ only by commutativity and associativity of +, which hold on the
  extended reals with no side condition: the precondition (finite inputs) is never used for the values.

  The kernel's three result arrays are read off its generated frame run block by block (KFinal), the reference's off
  its generated run one operation at a time (RefIsSpec); both are the same three functions of the arguments (Spec).
  The idealization rewrote nothing, so the kernel's idealized program is its own text read at the ideal values.
-/
import proofs.«103413_j58136677318825_1_alg».proof.Defs
import proofs.«103413_j58136677318825_1_alg».proof.Proof.Gen.Kernel
import proofs.«103413_j58136677318825_1_alg».proof.Proof.Gen.Kernel.Skeleton
import proofs.«103413_j58136677318825_1_alg».proof.Proof.Gen.Kernel.Launch
import proofs.«103413_j58136677318825_1_alg».proof.Proof.Gen.Kernel.Points
import proofs.«103413_j58136677318825_1_alg».proof.Proof.Gen.Kernel.Frame
import proofs.«103413_j58136677318825_1_alg».proof.Proof.Gen.KernelIdeal
import proofs.«103413_j58136677318825_1_alg».proof.Proof.Gen.KernelIdeal.Skeleton
import proofs.«103413_j58136677318825_1_alg».proof.Proof.Gen.KernelIdeal.Launch
import proofs.«103413_j58136677318825_1_alg».proof.Proof.Gen.KernelIdeal.Points
import proofs.«103413_j58136677318825_1_alg».proof.Proof.Gen.KernelIdeal.Frame
import proofs.«103413_j58136677318825_1_alg».proof.Proof.Gen.ReferenceIdeal
import proofs.«103413_j58136677318825_1_alg».proof.Proof.Gen.Pre_finite_inputs
import proofs.«103413_j58136677318825_1_alg».proof.Proof.Gen.KernelIdeal.Value
import proofs.«103413_j58136677318825_1_alg».proof.Proof.Gen.ReferenceIdeal.Run
import proofs.«103413_j58136677318825_1_alg».proof.Proof.Gen.ReferenceIdeal.Read
import proofs.«103413_j58136677318825_1_alg».proof.Proof.KFinal
import proofs.«103413_j58136677318825_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs, nothing faulting, its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a host program: its run, with the results dropped, is its frame. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments both programs end with the action, the new hidden state and the new cell
    state of the whole batch: the kernel's three arrays block by block, the reference's operation by operation. -/
theorem algebraic : Cert.algebraic_KernelIdeal_ReferenceIdeal := by
  intro m ρ m' ρ' _ hagree
  refine ⟨fun c => Cert.Lstm.Kern.GA m c, fun c => Cert.Lstm.Kern.GH m c, fun c => Cert.Lstm.Kern.GC m c,
    Cert.Lstm.Kern.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2⟩
  · rw [Cert.ReferenceIdeal.Read.val_main_v59_eq, Cert.Lstm.Ref.ref_a, a0, a1, a2, a3, a4, a5, a6, a7, a8, a9, a10]
  · rw [Cert.ReferenceIdeal.Read.val_main_v60_eq,
      Cert.Lstm.Ref.ref_h _ _ _ _ _ _ _ _ _ (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)),
      a0, a1, a2, a3, a4, a5, a6, a7, a8, a9, a10]
  · rw [Cert.ReferenceIdeal.Read.val_main_v61_eq,
      Cert.Lstm.Ref.ref_c _ _ _ _ _ _ _ _ _ (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)),
      a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
